-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x100000 : Shape := ⟨3, ![8, 64, 100000]⟩
abbrev S8x3x100000 : Shape := ⟨3, ![8, 3, 100000]⟩
abbrev S_ : Shape := ⟨0, ![]⟩

class Facts : Prop where
  bcast_S_S8x64x100000 : S_.BroadcastsInDim S8x64x100000 (![] : Fin 0 → Fin S8x64x100000.rank)
  reducesTo_S8x64x100000_S_d0_1_2 : S8x64x100000.ReducesTo [0, 1, 2] S_
  h_S_ : 0 < S_.numel
  bcast_S_S8x3x100000 : S_.BroadcastsInDim S8x3x100000 (![] : Fin 0 → Fin S8x3x100000.rank)
  reducesTo_S8x3x100000_S_d0_1_2 : S8x3x100000.ReducesTo [0, 1, 2] S_

variable [Facts]

def fn {F : FTy → Type} [FloatOps F] (main_arg0 : FVec F S8x64x100000 .f32) (main_arg1 : FVec F S8x3x100000 .f32) : IVec S_ 1 :=
  let main_v0 : FVec F S8x64x100000 .f32 := Host.absf main_arg0
  let main_cst : FVec F S_ .f32 := constant S_ .f32 0x7F800000#32
  let main_v1 : FVec F S8x64x100000 .f32 := broadcastInDim S8x64x100000 ![] bcast_S_S8x64x100000 main_cst
  let main_v2 : IVec S8x64x100000 1 := cmpf .olt main_v0 main_v1
  let main_c : IVec S_ 1 := constantI S_ 1 1#1
  let main_v3 : IVec S_ 1 := (fun x v => Host.reduce IntOp.andi x v reducesTo_S8x64x100000_S_d0_1_2 h_S_) main_v2 main_c
  let main_v4 : FVec F S8x3x100000 .f32 := Host.absf main_arg1
  let main_cst_0 : FVec F S_ .f32 := constant S_ .f32 0x7F800000#32
  let main_v5 : FVec F S8x3x100000 .f32 := broadcastInDim S8x3x100000 ![] bcast_S_S8x3x100000 main_cst_0
  let main_v6 : IVec S8x3x100000 1 := cmpf .olt main_v4 main_v5
  let main_c_1 : IVec S_ 1 := constantI S_ 1 1#1
  let main_v7 : IVec S_ 1 := (fun x v => Host.reduce IntOp.andi x v reducesTo_S8x3x100000_S_d0_1_2 h_S_) main_v6 main_c_1
  let main_v8 : IVec S_ 1 := andi main_v3 main_v7
  main_v8
-- ==== Kernel.lean ====
abbrev S8x64x100000 : Shape := ⟨3, ![8, 64, 100000]⟩
abbrev S8x3x100000 : Shape := ⟨3, ![8, 3, 100000]⟩
abbrev S_ : Shape := ⟨0, ![]⟩
abbrev S8x3 : Shape := ⟨2, ![8, 3]⟩
abbrev S8x3x1 : Shape := ⟨3, ![8, 3, 1]⟩
abbrev S8x100000 : Shape := ⟨2, ![8, 100000]⟩
abbrev S8x1x100000 : Shape := ⟨3, ![8, 1, 100000]⟩
abbrev S8x1 : Shape := ⟨2, ![8, 1]⟩
abbrev S8x1x1 : Shape := ⟨3, ![8, 1, 1]⟩
abbrev S8x102400 : Shape := ⟨2, ![8, 102400]⟩
abbrev S8x1x102400 : Shape := ⟨3, ![8, 1, 102400]⟩
abbrev S8x64x102400 : Shape := ⟨3, ![8, 64, 102400]⟩
abbrev S8x65x102400 : Shape := ⟨3, ![8, 65, 102400]⟩
abbrev S8x64x32768 : Shape := ⟨3, ![8, 64, 32768]⟩
abbrev S1x1x4096 : Shape := ⟨3, ![1, 1, 4096]⟩
abbrev S1x65x4096 : Shape := ⟨3, ![1, 65, 4096]⟩
abbrev S1x64x32768 : Shape := ⟨3, ![1, 64, 32768]⟩
abbrev S64x32768 : Shape := ⟨2, ![64, 32768]⟩
abbrev S1x32768 : Shape := ⟨2, ![1, 32768]⟩
abbrev S1x4096 : Shape := ⟨2, ![1, 4096]⟩
abbrev S65x4096 : Shape := ⟨2, ![65, 4096]⟩
abbrev S1024x1 : Shape := ⟨2, ![1024, 1]⟩
abbrev S1024x4096 : Shape := ⟨2, ![1024, 4096]⟩
abbrev S65x1024 : Shape := ⟨2, ![65, 1024]⟩
abbrev S64x1024 : Shape := ⟨2, ![64, 1024]⟩
abbrev S1x1024 : Shape := ⟨2, ![1, 1024]⟩
abbrev S8x64x32x32x32 : Shape := ⟨5, ![8, 64, 32, 32, 32]⟩

abbrev nBuf : Space → Nat
  | .hbm => 69
  | .vmem => 8
  | .smem => 0
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S_, .f32⟩
  | .hbm, ⟨3, _⟩ => ⟨S8x3, .f32⟩
  | .hbm, ⟨4, _⟩ => ⟨S8x3x1, .f32⟩
  | .hbm, ⟨5, _⟩ => ⟨S_, .f32⟩
  | .hbm, ⟨6, _⟩ => ⟨S8x3x1, .f32⟩
  | .hbm, ⟨7, _⟩ => ⟨S8x3x1, .f32⟩
  | .hbm, ⟨8, _⟩ => ⟨S8x3x100000, .f32⟩
  | .hbm, ⟨9, _⟩ => ⟨S8x3x100000, .f32⟩
  | .hbm, ⟨10, _⟩ => ⟨S8x3x100000, .f32⟩
  | .hbm, ⟨11, _⟩ => ⟨S_, .f32⟩
  | .hbm, ⟨12, _⟩ => ⟨S8x100000, .f32⟩
  | .hbm, ⟨13, _⟩ => ⟨S8x1x100000, .f32⟩
  | .hbm, ⟨14, _⟩ => ⟨S8x1x100000, .f32⟩
  | .hbm, ⟨15, _⟩ => ⟨S_, .f32⟩
  | .hbm, ⟨16, _⟩ => ⟨S8x1, .f32⟩
  | .hbm, ⟨17, _⟩ => ⟨S8x1x1, .f32⟩
  | .hbm, ⟨18, _⟩ => ⟨S_, .f32⟩
  | .hbm, ⟨19, _⟩ => ⟨S8x1x1, .f32⟩
  | .hbm, ⟨20, _⟩ => ⟨S8x1x1, .f32⟩
  | .hbm, ⟨21, _⟩ => ⟨S_, .f32⟩
  | .hbm, ⟨22, _⟩ => ⟨S8x1x1, .f32⟩
  | .hbm, ⟨23, _⟩ => ⟨S8x1x1, .f32⟩
  | .hbm, ⟨24, _⟩ => ⟨S8x3x100000, .f32⟩
  | .hbm, ⟨25, _⟩ => ⟨S8x3x100000, .f32⟩
  | .hbm, ⟨26, _⟩ => ⟨S_, .f32⟩
  | .hbm, ⟨27, _⟩ => ⟨S8x3x100000, .f32⟩
  | .hbm, ⟨28, _⟩ => ⟨S8x3x100000, .f32⟩
  | .hbm, ⟨29, _⟩ => ⟨S_, .f32⟩
  | .hbm, ⟨30, _⟩ => ⟨S8x3x100000, .f32⟩
  | .hbm, ⟨31, _⟩ => ⟨S8x3x100000, .f32⟩
  | .hbm, ⟨32, _⟩ => ⟨S_, .f32⟩
  | .hbm, ⟨33, _⟩ => ⟨S_, .i32⟩
  | .hbm, ⟨34, _⟩ => ⟨S_, .f32⟩
  | .hbm, ⟨35, _⟩ => ⟨S8x3x100000, .f32⟩
  | .hbm, ⟨36, _⟩ => ⟨S8x3x100000, .f32⟩
  | .hbm, ⟨37, _⟩ => ⟨S_, .f32⟩
  | .hbm, ⟨38, _⟩ => ⟨S8x3x100000, .f32⟩
  | .hbm, ⟨39, _⟩ => ⟨S8x3x100000, .f32⟩
  | .hbm, ⟨40, _⟩ => ⟨S8x3x100000, .f32⟩
  | .hbm, ⟨41, _⟩ => ⟨S8x3x100000, .i32⟩
  | .hbm, ⟨42, _⟩ => ⟨S8x1x100000, .i32⟩
  | .hbm, ⟨43, _⟩ => ⟨S8x100000, .i32⟩
  | .hbm, ⟨44, _⟩ => ⟨S_, .i32⟩
  | .hbm, ⟨45, _⟩ => ⟨S8x100000, .i32⟩
  | .hbm, ⟨46, _⟩ => ⟨S8x100000, .i32⟩
  | .hbm, ⟨47, _⟩ => ⟨S8x1x100000, .i32⟩
  | .hbm, ⟨48, _⟩ => ⟨S8x100000, .i32⟩
  | .hbm, ⟨49, _⟩ => ⟨S8x100000, .i32⟩
  | .hbm, ⟨50, _⟩ => ⟨S_, .i32⟩
  | .hbm, ⟨51, _⟩ => ⟨S8x100000, .i32⟩
  | .hbm, ⟨52, _⟩ => ⟨S8x100000, .i32⟩
  | .hbm, ⟨53, _⟩ => ⟨S8x1x100000, .i32⟩
  | .hbm, ⟨54, _⟩ => ⟨S8x100000, .i32⟩
  | .hbm, ⟨55, _⟩ => ⟨S8x100000, .i32⟩
  | .hbm, ⟨56, _⟩ => ⟨S_, .i32⟩
  | .hbm, ⟨57, _⟩ => ⟨S_, .i32⟩
  | .hbm, ⟨58, _⟩ => ⟨S8x102400, .i32⟩
  | .hbm, ⟨59, _⟩ => ⟨S8x1x102400, .i32⟩
  | .hbm, ⟨60, _⟩ => ⟨S8x64x100000, .bf16⟩
  | .hbm, ⟨61, _⟩ => ⟨S_, .i32⟩
  | .hbm, ⟨62, _⟩ => ⟨S_, .bf16⟩
  | .hbm, ⟨63, _⟩ => ⟨S8x64x102400, .bf16⟩
  | .hbm, ⟨64, _⟩ => ⟨S_, .bf16⟩
  | .hbm, ⟨65, _⟩ => ⟨S8x1x102400, .bf16⟩
  | .hbm, ⟨66, _⟩ => ⟨S8x65x102400, .bf16⟩
  | .hbm, ⟨67, _⟩ => ⟨S8x64x32768, .f32⟩
  | .hbm, ⟨68, _⟩ => ⟨S8x64x32x32x32, .f32⟩
  | .local _ .vmem, ⟨0, _⟩ => ⟨S1x1x4096, .i32⟩
  | .local _ .vmem, ⟨1, _⟩ => ⟨S1x1x4096, .i32⟩
  | .local _ .vmem, ⟨2, _⟩ => ⟨S1x65x4096, .bf16⟩
  | .local _ .vmem, ⟨3, _⟩ => ⟨S1x65x4096, .bf16⟩
  | .local _ .vmem, ⟨4, _⟩ => ⟨S1x64x32768, .f32⟩
  | .local _ .vmem, ⟨5, _⟩ => ⟨S1x64x32768, .f32⟩
  | .local _ .vmem, ⟨6, _⟩ => ⟨S64x32768, .f32⟩
  | .local _ .vmem, ⟨7, _⟩ => ⟨S1x32768, .f32⟩
  | _, _ => ⟨S8x64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_c : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_call3_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_call4_v0 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 25], ![false, false]⟩

@[reducible] def k0_t1_loop : Scf.Loop 32 :=
  let c0_i32_6 : BitVec 32 := 0#32
  let c32_i32 : BitVec 32 := 32#32
  let v7 : BitVec 32 := Scalar.addi c0_i32_6 c32_i32
  let c1_i32 : BitVec 32 := 1#32
  ⟨c0_i32_6, v7, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c1024_i32 : BitVec 32 := 1024#32
  let v11 : BitVec 32 := Scalar.muli arg7 c1024_i32
  v11
def k0_off1 (k0_t1 : Fin k0_t1_loop.trips) : Fin 2 → Nat :=
  let c0_9 : Index := 0#32
  let c0_i32_6 : BitVec 32 := 0#32
  let c1_i32 : BitVec 32 := 1#32
  let arg7 : BitVec 32 := Scf.iv c0_i32_6 c1_i32 k0_t1
  let c1024_i32 : BitVec 32 := 1024#32
  let v11 : BitVec 32 := Scalar.muli arg7 c1024_i32
  let v12 : BitVec 32 := v11
  let v23 : Index := Scalar.indexCast v12
  ![0, v23.toNat]
def k0_off2 (k0_t1 : Fin k0_t1_loop.trips) : Fin 2 → Nat :=
  let c0_11 : Index := 0#32
  let c0_i32_6 : BitVec 32 := 0#32
  let c1_i32 : BitVec 32 := 1#32
  let arg7 : BitVec 32 := Scf.iv c0_i32_6 c1_i32 k0_t1
  let c1024_i32 : BitVec 32 := 1024#32
  let v11 : BitVec 32 := Scalar.muli arg7 c1024_i32
  let v12 : BitVec 32 := v11
  let v31 : Index := Scalar.indexCast v12
  ![0, v31.toNat]
def k0_cond2 (i : grid0.Coords) : BitVec 1 :=
  let arg1 : BitVec 32 := BitVec.ofNat 32 (i 1).val
  let c24_i32 : BitVec 32 := 24#32
  let v8 : BitVec 1 := Scalar.cmpi .eq arg1 c24_i32
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8x3x100000_S8x3_d2 : S8x3x100000.ReducesTo [2] S8x3
  h_S_ : 0 < S_.numel
  bcast_S8x3_S8x3x1_0_1 : S8x3.BroadcastsInDim S8x3x1 (![0, 1] : Fin 2 → Fin S8x3x1.rank)
  bcast_S_S8x3x1 : S_.BroadcastsInDim S8x3x1 (![] : Fin 0 → Fin S8x3x1.rank)
  bcast_S8x3x1_S8x3x100000_0_1_2 : S8x3x1.BroadcastsInDim S8x3x100000 (![0, 1, 2] : Fin 3 → Fin S8x3x100000.rank)
  reducesTo_S8x3x100000_S8x100000_d1 : S8x3x100000.ReducesTo [1] S8x100000
  bcast_S8x100000_S8x1x100000_0_2 : S8x100000.BroadcastsInDim S8x1x100000 (![0, 2] : Fin 2 → Fin S8x1x100000.rank)
  reducesTo_S8x1x100000_S8x1_d2 : S8x1x100000.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x3x100000_0_1_2 : S8x1x1.BroadcastsInDim S8x3x100000 (![0, 1, 2] : Fin 3 → Fin S8x3x100000.rank)
  bcast_S_S8x3x100000 : S_.BroadcastsInDim S8x3x100000 (![] : Fin 0 → Fin S8x3x100000.rank)
  slices_S8x3x100000_S8x1x100000_0_0_0 : S8x3x100000.Slices ![0, 0, 0] S8x1x100000
  shapeCasts_S8x1x100000_S8x100000 : S8x1x100000.ShapeCasts S8x100000
  bcast_S_S8x100000 : S_.BroadcastsInDim S8x100000 (![] : Fin 0 → Fin S8x100000.rank)
  slices_S8x3x100000_S8x1x100000_0_1_0 : S8x3x100000.Slices ![0, 1, 0] S8x1x100000
  slices_S8x3x100000_S8x1x100000_0_2_0 : S8x3x100000.Slices ![0, 2, 0] S8x1x100000
  pads_S8x100000_S8x102400_000_024000 : S8x100000.Pads (![0, 0] : Fin 2 → Nat) ![0, 2400] ![0, 0] S8x102400
  bcast_S8x102400_S8x1x102400_0_2 : S8x102400.BroadcastsInDim S8x1x102400 (![0, 2] : Fin 2 → Fin S8x1x102400.rank)
  bitsLt_bf16_f32 : FTy.bits .bf16 < FTy.bits .f32
  pads_S8x64x100000_S8x64x102400_000_000_024000 : S8x64x100000.Pads (![0, 0, 0] : Fin 3 → Nat) ![0, 0, 2400] ![0, 0, 0] S8x64x102400
  bcast_S_S8x1x102400 : S_.BroadcastsInDim S8x1x102400 (![] : Fin 0 → Fin S8x1x102400.rank)
  concatenates_S8x64x102400_S8x1x102400_S8x65x102400_d1 : Shape.Concatenates [S8x64x102400, S8x1x102400] S8x65x102400 1
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  inb_S1x65x4096_S1x65x4096_0_0_0 : ∀ a, (![0, 0, 0] : Fin 3 → Nat) a + S1x65x4096.size a ≤ S1x65x4096.size a
  h_S1x65x4096 : 0 < S1x65x4096.numel
  shapeCasts_S1x65x4096_S65x4096 : S1x65x4096.ShapeCasts S65x4096
  iota_S1024x1_d0_w32 : S1024x1.Iotas .tc 32 [0]
  broadcasts_S1x4096_S1024x4096 : S1x4096.Broadcasts S1024x4096
  broadcasts_S1024x1_S1024x4096 : S1024x1.Broadcasts S1024x4096
  natLt_1_32 : 1 < 32
  h_S64x1024 : 0 < S64x1024.numel
  slices_S65x1024_o0_0_S64x1024 : S65x1024.Slices ![0, 0] S64x1024
  shapeCasts_S64x1024_S64x1024 : S64x1024.ShapeCasts S64x1024
  h_S1x1024 : 0 < S1x1024.numel
  slices_S65x1024_o64_0_S1x1024 : S65x1024.Slices ![64, 0] S1x1024
  shapeCasts_S1x1024_S1x1024 : S1x1024.ShapeCasts S1x1024
  broadcasts_S1x32768_S64x32768 : S1x32768.Broadcasts S64x32768
  inb_S1x64x32768_S1x64x32768_0_0_0 : ∀ a, (![0, 0, 0] : Fin 3 → Nat) a + S1x64x32768.size a ≤ S1x64x32768.size a
  h_S1x64x32768 : 0 < S1x64x32768.numel
  shapeCasts_S1x64x32768_S64x32768 : S1x64x32768.ShapeCasts S64x32768
  shapeCasts_S64x32768_S1x64x32768 : S64x32768.ShapeCasts S1x64x32768
  shapeCasts_S8x64x32768_S8x64x32x32x32 : S8x64x32768.ShapeCasts S8x64x32x32x32
  dot_S65x4096_S1024x4096_S65x1024_1_1_0_0_n_n_wf : DotDims.WF S65x4096 S1024x4096 S65x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S64x1024.size a ≤ S64x32768.size a
  k0_off2_inb : ∀ k0_t1 : Fin k0_t1_loop.trips, ∀ a, (k0_off2 k0_t1) a + S1x1024.size a ≤ S1x32768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096.size a ≤ S8x1x102400.size a
  hwx0_0 : ∀ i : grid0.Coords, EltTy.bits .i32 = 32 ∨ (Rect.block (s := S8x1x102400) S1x1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65x4096.size a ≤ S8x65x102400.size a
  hwx0_1 : ∀ i : grid0.Coords, EltTy.bits .bf16 = 32 ∨ (Rect.block (s := S8x65x102400) S1x65x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32768.size a ≤ S8x64x32768.size a
  hwx0_2 : ∀ i : grid0.Coords, EltTy.bits .f32 = 32 ∨ (Rect.block (s := S8x64x32768) S1x64x32768.size (cc0_transform_2 i) (hinb0_2 i)).WholeWords (EltTy.packing .f32)

variable [Facts₀]

def dot_S65x4096_S1024x4096_S65x1024_1_1_0_0_n_n : DotDims S65x4096 S1024x4096 S65x1024 where
  lhsContracting := [1]
  rhsContracting := [1]
  lhsNonContracting := [0]
  rhsNonContracting := [0]
  lhsBatch := []
  rhsBatch := []
  wf := dot_S65x4096_S1024x4096_S65x1024_1_1_0_0_n_n_wf

abbrev win0_0 : Pipeline.Window sig grid0 :=
  Pipeline.Window.ofSpec (Memref.whole main_v35) S1x1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1x65x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x64x32768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x64x100000 : Shape := ⟨3, ![8, 64, 100000]⟩
abbrev S8x3x100000 : Shape := ⟨3, ![8, 3, 100000]⟩
abbrev S_ : Shape := ⟨0, ![]⟩
abbrev S8x3 : Shape := ⟨2, ![8, 3]⟩
abbrev S8x3x1 : Shape := ⟨3, ![8, 3, 1]⟩
abbrev S8x100000 : Shape := ⟨2, ![8, 100000]⟩
abbrev S8x1x100000 : Shape := ⟨3, ![8, 1, 100000]⟩
abbrev S8x1 : Shape := ⟨2, ![8, 1]⟩
abbrev S8x1x1 : Shape := ⟨3, ![8, 1, 1]⟩
abbrev S8 : Shape := ⟨1, ![8]⟩
abbrev S800000 : Shape := ⟨1, ![800000]⟩
abbrev S8x100000x64 : Shape := ⟨3, ![8, 100000, 64]⟩
abbrev S800000x64 : Shape := ⟨2, ![800000, 64]⟩
abbrev S262144x64 : Shape := ⟨2, ![262144, 64]⟩
abbrev S800000x1 : Shape := ⟨2, ![800000, 1]⟩
abbrev S262144 : Shape := ⟨1, ![262144]⟩
abbrev S262144x1 : Shape := ⟨2, ![262144, 1]⟩
abbrev S8x32x32x32x64 : Shape := ⟨5, ![8, 32, 32, 32, 64]⟩
abbrev S8x64x32x32x32 : Shape := ⟨5, ![8, 64, 32, 32, 32]⟩

abbrev nBuf : Space → Nat
  | .hbm => 84
  | .vmem => 0
  | .smem => 0
  | _ => 0

abbrev bufTy : (tb : Table) → Fin (tcTables nBuf tb) → BufTy
  | .hbm, ⟨0, _⟩ => ⟨S8x64x100000, .f32⟩
  | .hbm, ⟨1, _⟩ => ⟨S8x3x100000, .f32⟩
  | .hbm, ⟨2, _⟩ => ⟨S_, .f32⟩
  | .hbm, ⟨3, _⟩ => ⟨S8x3, .f32⟩
  | .hbm, ⟨4, _⟩ => ⟨S8x3x1, .f32⟩
  | .hbm, ⟨5, _⟩ => ⟨S_, .f32⟩
  | .hbm, ⟨6, _⟩ => ⟨S8x3x1, .f32⟩
  | .hbm, ⟨7, _⟩ => ⟨S8x3x1, .f32⟩
  | .hbm, ⟨8, _⟩ => ⟨S8x3x100000, .f32⟩
  | .hbm, ⟨9, _⟩ => ⟨S8x3x100000, .f32⟩
  | .hbm, ⟨10, _⟩ => ⟨S8x3x100000, .f32⟩
  | .hbm, ⟨11, _⟩ => ⟨S_, .f32⟩
  | .hbm, ⟨12, _⟩ => ⟨S8x100000, .f32⟩
  | .hbm, ⟨13, _⟩ => ⟨S8x1x100000, .f32⟩
  | .hbm, ⟨14, _⟩ => ⟨S8x1x100000, .f32⟩
  | .hbm, ⟨15, _⟩ => ⟨S_, .f32⟩
  | .hbm, ⟨16, _⟩ => ⟨S8x1, .f32⟩
  | .hbm, ⟨17, _⟩ => ⟨S8x1x1, .f32⟩
  | .hbm, ⟨18, _⟩ => ⟨S_, .f32⟩
  | .hbm, ⟨19, _⟩ => ⟨S8x1x1, .f32⟩
  | .hbm, ⟨20, _⟩ => ⟨S8x1x1, .f32⟩
  | .hbm, ⟨21, _⟩ => ⟨S_, .f32⟩
  | .hbm, ⟨22, _⟩ => ⟨S8x1x1, .f32⟩
  | .hbm, ⟨23, _⟩ => ⟨S8x1x1, .f32⟩
  | .hbm, ⟨24, _⟩ => ⟨S8x3x100000, .f32⟩
  | .hbm, ⟨25, _⟩ => ⟨S8x3x100000, .f32⟩
  | .hbm, ⟨26, _⟩ => ⟨S_, .f32⟩
  | .hbm, ⟨27, _⟩ => ⟨S8x3x100000, .f32⟩
  | .hbm, ⟨28, _⟩ => ⟨S8x3x100000, .f32⟩
  | .hbm, ⟨29, _⟩ => ⟨S_, .f32⟩
  | .hbm, ⟨30, _⟩ => ⟨S8x3x100000, .f32⟩
  | .hbm, ⟨31, _⟩ => ⟨S8x3x100000, .f32⟩
  | .hbm, ⟨32, _⟩ => ⟨S_, .f32⟩
  | .hbm, ⟨33, _⟩ => ⟨S_, .i32⟩
  | .hbm, ⟨34, _⟩ => ⟨S_, .f32⟩
  | .hbm, ⟨35, _⟩ => ⟨S8x3x100000, .f32⟩
  | .hbm, ⟨36, _⟩ => ⟨S8x3x100000, .f32⟩
  | .hbm, ⟨37, _⟩ => ⟨S_, .f32⟩
  | .hbm, ⟨38, _⟩ => ⟨S8x3x100000, .f32⟩
  | .hbm, ⟨39, _⟩ => ⟨S8x3x100000, .f32⟩
  | .hbm, ⟨40, _⟩ => ⟨S8x3x100000, .f32⟩
  | .hbm, ⟨41, _⟩ => ⟨S8x3x100000, .i32⟩
  | .hbm, ⟨42, _⟩ => ⟨S8x1x100000, .i32⟩
  | .hbm, ⟨43, _⟩ => ⟨S8x100000, .i32⟩
  | .hbm, ⟨44, _⟩ => ⟨S_, .i32⟩
  | .hbm, ⟨45, _⟩ => ⟨S8x100000, .i32⟩
  | .hbm, ⟨46, _⟩ => ⟨S8x100000, .i32⟩
  | .hbm, ⟨47, _⟩ => ⟨S8x1x100000, .i32⟩
  | .hbm, ⟨48, _⟩ => ⟨S8x100000, .i32⟩
  | .hbm, ⟨49, _⟩ => ⟨S8x100000, .i32⟩
  | .hbm, ⟨50, _⟩ => ⟨S_, .i32⟩
  | .hbm, ⟨51, _⟩ => ⟨S8x100000, .i32⟩
  | .hbm, ⟨52, _⟩ => ⟨S8x100000, .i32⟩
  | .hbm, ⟨53, _⟩ => ⟨S8x1x100000, .i32⟩
  | .hbm, ⟨54, _⟩ => ⟨S8x100000, .i32⟩
  | .hbm, ⟨55, _⟩ => ⟨S8x100000, .i32⟩
  | .hbm, ⟨56, _⟩ => ⟨S8, .i32⟩
  | .hbm, ⟨57, _⟩ => ⟨S8x1, .i32⟩
  | .hbm, ⟨58, _⟩ => ⟨S_, .i32⟩
  | .hbm, ⟨59, _⟩ => ⟨S8x1, .i32⟩
  | .hbm, ⟨60, _⟩ => ⟨S8x1, .i32⟩
  | .hbm, ⟨61, _⟩ => ⟨S8x100000, .i32⟩
  | .hbm, ⟨62, _⟩ => ⟨S8x100000, .i32⟩
  | .hbm, ⟨63, _⟩ => ⟨S800000, .i32⟩
  | .hbm, ⟨64, _⟩ => ⟨S8x100000x64, .f32⟩
  | .hbm, ⟨65, _⟩ => ⟨S800000x64, .f32⟩
  | .hbm, ⟨66, _⟩ => ⟨S_, .f32⟩
  | .hbm, ⟨67, _⟩ => ⟨S262144x64, .f32⟩
  | .hbm, ⟨68, _⟩ => ⟨S800000x1, .i32⟩
  | .hbm, ⟨69, _⟩ => ⟨S262144x64, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S262144, .f32⟩
  | .hbm, ⟨74, _⟩ => ⟨S800000x1, .i32⟩
  | .hbm, ⟨75, _⟩ => ⟨S262144, .f32⟩
  | .hbm, ⟨76, _⟩ => ⟨S_, .f32⟩
  | .hbm, ⟨77, _⟩ => ⟨S262144, .f32⟩
  | .hbm, ⟨78, _⟩ => ⟨S262144, .f32⟩
  | .hbm, ⟨79, _⟩ => ⟨S262144x1, .f32⟩
  | .hbm, ⟨80, _⟩ => ⟨S262144x64, .f32⟩
  | .hbm, ⟨81, _⟩ => ⟨S262144x64, .f32⟩
  | .hbm, ⟨82, _⟩ => ⟨S8x32x32x32x64, .f32⟩
  | .hbm, ⟨83, _⟩ => ⟨S8x64x32x32x32, .f32⟩
  | _, _ => ⟨S8x64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_c : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  reducesTo_S8x3x100000_S8x3_d2 : S8x3x100000.ReducesTo [2] S8x3
  h_S_ : 0 < S_.numel
  bcast_S8x3_S8x3x1_0_1 : S8x3.BroadcastsInDim S8x3x1 (![0, 1] : Fin 2 → Fin S8x3x1.rank)
  bcast_S_S8x3x1 : S_.BroadcastsInDim S8x3x1 (![] : Fin 0 → Fin S8x3x1.rank)
  bcast_S8x3x1_S8x3x100000_0_1_2 : S8x3x1.BroadcastsInDim S8x3x100000 (![0, 1, 2] : Fin 3 → Fin S8x3x100000.rank)
  reducesTo_S8x3x100000_S8x100000_d1 : S8x3x100000.ReducesTo [1] S8x100000
  bcast_S8x100000_S8x1x100000_0_2 : S8x100000.BroadcastsInDim S8x1x100000 (![0, 2] : Fin 2 → Fin S8x1x100000.rank)
  reducesTo_S8x1x100000_S8x1_d2 : S8x1x100000.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x3x100000_0_1_2 : S8x1x1.BroadcastsInDim S8x3x100000 (![0, 1, 2] : Fin 3 → Fin S8x3x100000.rank)
  bcast_S_S8x3x100000 : S_.BroadcastsInDim S8x3x100000 (![] : Fin 0 → Fin S8x3x100000.rank)
  slices_S8x3x100000_S8x1x100000_0_0_0 : S8x3x100000.Slices ![0, 0, 0] S8x1x100000
  shapeCasts_S8x1x100000_S8x100000 : S8x1x100000.ShapeCasts S8x100000
  bcast_S_S8x100000 : S_.BroadcastsInDim S8x100000 (![] : Fin 0 → Fin S8x100000.rank)
  slices_S8x3x100000_S8x1x100000_0_1_0 : S8x3x100000.Slices ![0, 1, 0] S8x1x100000
  slices_S8x3x100000_S8x1x100000_0_2_0 : S8x3x100000.Slices ![0, 2, 0] S8x1x100000
  bcast_S8_S8x1_0 : S8.BroadcastsInDim S8x1 (![0] : Fin 1 → Fin S8x1.rank)
  bcast_S_S8x1 : S_.BroadcastsInDim S8x1 (![] : Fin 0 → Fin S8x1.rank)
  bcast_S8x1_S8x100000_0_1 : S8x1.BroadcastsInDim S8x100000 (![0, 1] : Fin 2 → Fin S8x100000.rank)
  shapeCasts_S8x100000_S800000 : S8x100000.ShapeCasts S800000
  transposes_S8x64x100000_S8x100000x64_0_2_1 : S8x64x100000.Transposes [0, 2, 1] S8x100000x64
  shapeCasts_S8x100000x64_S800000x64 : S8x100000x64.ShapeCasts S800000x64
  bcast_S_S262144x64 : S_.BroadcastsInDim S262144x64 (![] : Fin 0 → Fin S262144x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S8x32x32x32x64 : S262144x64.ShapeCasts S8x32x32x32x64
  transposes_S8x32x32x32x64_S8x64x32x32x32_0_4_1_2_3 : S8x32x32x32x64.Transposes [0, 4, 1, 2, 3] S8x64x32x32x32
  scatter_S262144x64_S800000x1_S800000x64_1_0_0_1_wf : ScatterDims.WF S262144x64 S800000x1 S800000x64 [1] [0] [0] 1
  scatter_S262144_S800000x1_S800000_n_0_0_1_wf : ScatterDims.WF S262144 S800000x1 S800000 [] [0] [0] 1

variable [Facts₀]

def scatter_S262144x64_S800000x1_S800000x64_1_0_0_1 : ScatterDims S262144x64 S800000x1 S800000x64 where
  updateWindowDims := [1]
  insertedWindowDims := [0]
  scatterDimsToOperandDims := [0]
  indexVectorDim := 1
  wf := scatter_S262144x64_S800000x1_S800000x64_1_0_0_1_wf
def scatter_S262144_S800000x1_S800000_n_0_0_1 : ScatterDims S262144 S800000x1 S800000 where
  updateWindowDims := []
  insertedWindowDims := [0]
  scatterDimsToOperandDims := [0]
  indexVectorDim := 1
  wf := scatter_S262144_S800000x1_S800000_n_0_0_1_wf

class Facts : Prop extends Facts₀ where

variable [Facts]
-- ==== Proof.Spec.lean ====
/-
  The specification both programs are proved against.

  A point cloud of 100000 points per batch element carries 64 feature channels; every point has a voxel
  number (a 32-bit word). For a batch element `b` and a voxel number `v`:
    * `count`  is the number of points of `b` whose voxel number is `v`,
    * `total`  is, for a channel `f`, the sum of that channel over those points,
    * the result at `(b, f, x, y, z)` is `total / max count 1` at the voxel `v = (32 x + y) 32 + z`.
  Sums are over the extended reals; the selection is written as an `if` inside the sum, so that no
  finiteness of the features is needed to move between the two programs' arrangements of the sum.
-/
import Idealize.ShloMosaic.PureOps.Ideal
import Idealize.ShloMosaic.Lib.ValueIdx

noncomputable section

open scoped BigOperators

namespace VoxelAvg

open Idealize.ShloMosaic Idealize.ShloMosaic.ValueIdx

/-- Features: 8 batch elements, 64 channels, 100000 points. -/
abbrev SFeat : Shape := ⟨3, ![8, 64, 100000]⟩
/-- Voxel numbers: 8 batch elements, 100000 points. -/
abbrev SVox : Shape := ⟨2, ![8, 100000]⟩
/-- The result grid: 8 batch elements, 64 channels, 32 × 32 × 32 voxels. -/
abbrev SGrid : Shape := ⟨5, ![8, 64, 32, 32, 32]⟩

/-- The number of the voxel at grid position `(x, y, z)`. -/
def vox (x y z : Fin 32) : ℕ := (x.val * 32 + y.val) * 32 + z.val

theorem vox_lt (x y z : Fin 32) : vox x y z < 32768 := by
  unfold vox; have := x.isLt; have := y.isLt; have := z.isLt; omega

/-- How many points of batch element `b` carry the voxel number `v`. -/
def count (idx : SVox.Idx → BitVec 32) (b : Fin 8) (v : ℕ) : EReal :=
  ∑ n : Fin 100000, if idx (ix2 b n) = BitVec.ofNat 32 v then (1 : EReal) else 0

/-- The sum of channel `f` over the points of batch element `b` that carry the voxel number `v`. -/
def total (feat : SFeat.Idx → EReal) (idx : SVox.Idx → BitVec 32) (b : Fin 8) (f : Fin 64) (v : ℕ) : EReal :=
  ∑ n : Fin 100000, if idx (ix2 b n) = BitVec.ofNat 32 v then feat (ix3 b f n) else 0

/-- The averaged feature of one voxel, by coordinates. -/
def avgAt (feat : SFeat.Idx → EReal) (idx : SVox.Idx → BitVec 32) (b : Fin 8) (f : Fin 64) (x y z : Fin 32) : EReal :=
  Ideal.div (total feat idx b f (vox x y z)) (max (count idx b (vox x y z)) 1)

/-- The result grid as one function of the features and the voxel numbers. -/
def avg (feat : SFeat.Idx → EReal) (idx : SVox.Idx → BitVec 32) : SGrid.Idx → EReal :=
  fun i => avgAt feat idx (i 0) (i 1) (i 2) (i 3) (i 4)

theorem avg_ix5 (feat : SFeat.Idx → EReal) (idx : SVox.Idx → BitVec 32) (b : Fin 8) (f : Fin 64) (x y z : Fin 32) :
    avg feat idx (ix5 b f x y z) = avgAt feat idx b f x y z := rfl

end VoxelAvg

end
-- ==== Proof.LibHostScatterIdeal.lean ====
import Idealize.ShloMosaic.PureOps.Ideal

/-!
  THE HOST'S ACCUMULATING SCATTER AT THE IDEAL VALUES, WITHOUT OPENING IT.

  The host program's accumulating float scatter `Host.scatterAdd d x idx upd` is, at the ideal values, the exact
  function `Ideal.hostScatterAdd d x idx upd`: each operand element plus the sum of the update elements that land on it.
  Both steps of this identification are definitional, but at a full-size update array (hundreds of thousands of
  updates) a goal must never be asked to see that by unfolding: the exact function's body is an extended-real sum over
  every update index. So the first step is stated for an ARBITRARY float instance, where the operation is a field of
  an unknown structure and nothing can unfold, and the second is the instance's own equation; a proof rewrites with
  this lemma as a whole and then reads the result with a lemma about `Ideal.hostScatterAdd` (a segment sum read at an
  index, say).
-/

namespace Idealize.ShloMosaic

/-- The host's accumulating scatter is the float instance's `hostScatterAdd` at the single-device schedule, at any
    instance. -/
theorem Host.scatterAdd_eq_hostScatterAdd {F : FTy → Type} [FloatOps F] {s si u : Shape} {φ : FTy} {w : Nat}
    (d : ScatterDims s si u) (x : FVec F s φ) (idx : IVec si w) (upd : FVec F u φ) :
    Host.scatterAdd d x idx upd = FloatOps.hostScatterAdd d .single x idx upd := rfl

/-- At the ideal values it is the exact accumulating scatter. -/
theorem Host.scatterAdd_ideal {s si u : Shape} {φ : FTy} {w : Nat}
    (d : ScatterDims s si u) (x : FVec Ideal s φ) (idx : IVec si w) (upd : FVec Ideal u φ) :
    Host.scatterAdd d x idx upd = Ideal.hostScatterAdd d x idx upd :=
  (Host.scatterAdd_eq_hostScatterAdd d x idx upd).trans (Ideal.hostScatterAdd_def d .single x idx upd)

end Idealize.ShloMosaic
-- ==== Proof.LibScatterRows.lean ====
import Idealize.ShloMosaic.Lib.ValueIdx

/-!
  A ROW SCATTER READ AT AN INDEX.

  An accumulating scatter whose scatter indices are one column of row numbers — operand `[N, F]`, updates
  `[E, F]`, indices `[E, 1]`, update `e` added onto operand row `idx e` (a segment sum over the leading axis) — is, at
  the ideal values and at operand index `(n, f)`, the operand there plus the sum of `u (e, f)` over the updates `e`
  whose row number is `n`. The row number is read SIGNED and is not clamped: an update whose row number lies outside
  `[0, N)` lands nowhere and is dropped. The same for a rank-3 operand `[N, H, D]` with updates `[E, H, D]`, and
  the two compared: scattering `[E, H, D]` updates is scattering the same numbers laid out as `[E, H * D]`.

  Every lemma takes an arbitrary dimension record `d` of the right shapes together with the four equations that
  say its lists are those of a row scatter; for a record given by literal lists each equation is `rfl`.
-/

open scoped BigOperators
open Idealize.ShloMosaic Idealize.ShloMosaic.ValueIdx

namespace ScatterRows

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rank 2: operand `[N, F]`, updates `[E, F]`, indices `[E, 1]` -/

section Rank2

variable {N E F : Nat} (d : ScatterDims ⟨2, ![N, F]⟩ ⟨2, ![E, 1]⟩ ⟨2, ![E, F]⟩)

/-- Update `(e, f)` reads its row number at `(e, 0)` of the scatter indices. -/
theorem siIdx2 (huw : d.updateWindowDims = [1]) (hiw : d.insertedWindowDims = [0])
    (hsd : d.scatterDimsToOperandDims = [0]) (hiv : d.indexVectorDim = 1)
    (e : Fin E) (f : Fin F) (c : Fin d.scatterDimsToOperandDims.length) :
    d.siIdx (ix2 e f) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, f)` starts at its row number, read signed. -/
theorem start2_row (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) :
    d.start (ix2 e f) idx 0 = (idx (ix2 e 0)).toInt := by
  have hm : (0 : Fin 2) ∈ d.scatterDimsToOperandDims := by
    rw [hsd]; show (0 : Fin 2) ∈ ([0] : List (Fin 2)); decide
  unfold ScatterDims.start
  rw [dif_pos hm, siIdx2 d huw hiw hsd hiv]

/-- On the column axis the window starts at `0`. -/
theorem start2_col (hsd : d.scatterDimsToOperandDims = [0])
    (idx : IVec ⟨2, ![E, 1]⟩ 32) (j : (⟨2, ![E, F]⟩ : Shape).Idx) :
    d.start j idx 1 = 0 := by
  have hm : ¬ (1 : Fin 2) ∈ d.scatterDimsToOperandDims := by
    rw [hsd]; show ¬ (1 : Fin 2) ∈ ([0] : List (Fin 2)); decide
  unfold ScatterDims.start
  rw [dif_neg hm]

/-- The row axis is inserted: the window coordinate there is `0`. -/
theorem window2_row (hiw : d.insertedWindowDims = [0]) (j : (⟨2, ![E, F]⟩ : Shape).Idx) :
    d.window j 0 = 0 := by
  have hm : ¬ (0 : Fin 2) ∈ d.sKept := by
    show ¬ (0 : Fin 2) ∈ Shape.kept _ d.insertedWindowDims
    rw [hiw]
    show ¬ (0 : Fin 2) ∈ (List.finRange 2).filter (fun a => a ∉ ([0] : List (Fin 2)))
    decide
  unfold ScatterDims.window
  rw [dif_neg hm]

/-- The window coordinate on the column axis is the update's column. -/
theorem window2_col (huw : d.updateWindowDims = [1]) (hiw : d.insertedWindowDims = [0])
    (e : Fin E) (f : Fin F) :
    d.window (ix2 e f) 1 = f.val := by
  obtain ⟨uw, iw, sd, iv, wf⟩ := d
  subst huw hiw
  rfl

/-- Update `(e, f)` lands at operand index `(n, f')` exactly when its row number is `n` and `f = f'`. -/
theorem resultIdx2 (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) (n : Fin N) (f' : Fin F) :
    d.resultIdx? (ix2 e f) idx = some (ix2 n f') ↔ (idx (ix2 e 0)).toInt = (n.val : Int) ∧ f = f' := by
  have s0 := start2_row d huw hiw hsd hiv idx e f
  have s1 := start2_col d hsd idx (ix2 e f)
  have w0 := window2_row d hiw (ix2 e f)
  have w1 := window2_col d huw hiw e f
  unfold ScatterDims.resultIdx?
  split
  · rename_i h
    constructor
    · intro he
      have hfun := Option.some.inj he
      have h0 : (d.start (ix2 e f) idx 0 + d.window (ix2 e f) 0).toNat = n.val :=
        congrArg Fin.val (congrFun hfun 0)
      have h1 : (d.start (ix2 e f) idx 1 + d.window (ix2 e f) 1).toNat = f'.val :=
        congrArg Fin.val (congrFun hfun 1)
      have hh := (h 0).1
      rw [s0, w0] at h0 hh
      rw [s1, w1] at h1
      exact ⟨by omega, Fin.ext (by omega)⟩
    · rintro ⟨hn, rfl⟩
      congr 1
      funext a
      match a with
      | ⟨0, _⟩ =>
        exact Fin.ext (by
          show (d.start (ix2 e f) idx 0 + d.window (ix2 e f) 0).toNat = n.val
          rw [s0, w0]; omega)
      | ⟨1, _⟩ =>
        exact Fin.ext (by
          show (d.start (ix2 e f) idx 1 + d.window (ix2 e f) 1).toNat = f.val
          rw [s1, w1]; omega)
  · rename_i h
    constructor
    · intro he; exact absurd he (by simp)
    · rintro ⟨hn, rfl⟩
      exfalso; apply h
      intro a
      match a with
      | ⟨0, _⟩ =>
        show 0 ≤ d.start (ix2 e f) idx 0 + d.window (ix2 e f) 0
          ∧ d.start (ix2 e f) idx 0 + d.window (ix2 e f) 0 < (N : Int)
        rw [s0, w0]; have := n.isLt; omega
      | ⟨1, _⟩ =>
        show 0 ≤ d.start (ix2 e f) idx 1 + d.window (ix2 e f) 1
          ∧ d.start (ix2 e f) idx 1 + d.window (ix2 e f) 1 < (F : Int)
        rw [s1, w1]; have := f.isLt; omega

/-- THE ROW SCATTER AT AN INDEX, rank 2: the operand at `(n, f)` plus the sum of `u (e, f)` over the updates `e`
    whose row number, read signed, is `n`. -/
theorem hostScatterAdd_rows2 (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ 32)
    (u : (⟨2, ![E, F]⟩ : Shape).Idx → EReal) (n : Fin N) (f : Fin F) :
    Ideal.hostScatterAdd d x idx u (ix2 n f)
      = x (ix2 n f) + ∑ e ∈ Finset.univ.filter (fun e : Fin E => (idx (ix2 e 0)).toInt = (n.val : Int)), u (ix2 e f) := by
  unfold Ideal.hostScatterAdd
  congr 1
  rw [Finset.sum_filter, Finset.sum_filter, sum_idx2]
  refine Finset.sum_congr rfl fun e _ => ?_
  simp only [resultIdx2 d huw hiw hsd hiv idx e]
  by_cases hn : (idx (ix2 e 0)).toInt = (n.val : Int)
  · simp [hn]
  · simp [hn]

end Rank2

/-! ## Rank 3: operand `[N, H, D]`, updates `[E, H, D]`, indices `[E, 1]` -/

section Rank3

variable {N E H D : Nat} (d : ScatterDims ⟨3, ![N, H, D]⟩ ⟨2, ![E, 1]⟩ ⟨3, ![E, H, D]⟩)

/-- Update `(e, h, k)` reads its row number at `(e, 0)` of the scatter indices. -/
theorem siIdx3 (huw : d.updateWindowDims = [1, 2]) (hiw : d.insertedWindowDims = [0])
    (hsd : d.scatterDimsToOperandDims = [0]) (hiv : d.indexVectorDim = 1)
    (e : Fin E) (h : Fin H) (k : Fin D) (c : Fin d.scatterDimsToOperandDims.length) :
    d.siIdx (ix3 e h k) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, h, k)` starts at its row number, read signed. -/
theorem start3_row (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) :
    d.start (ix3 e h k) idx 0 = (idx (ix2 e 0)).toInt := by
  have hm : (0 : Fin 3) ∈ d.scatterDimsToOperandDims := by
    rw [hsd]; show (0 : Fin 3) ∈ ([0] : List (Fin 3)); decide
  unfold ScatterDims.start
  rw [dif_pos hm, siIdx3 d huw hiw hsd hiv]

/-- On the two window axes the window starts at `0`. -/
theorem start3_win (hsd : d.scatterDimsToOperandDims = [0])
    (idx : IVec ⟨2, ![E, 1]⟩ 32) (j : (⟨3, ![E, H, D]⟩ : Shape).Idx) (a : Fin 3) (ha : a ≠ 0) :
    d.start j idx a = 0 := by
  have hm : ¬ a ∈ d.scatterDimsToOperandDims := by
    rw [hsd]; intro hmem; exact ha (List.mem_singleton.1 hmem)
  unfold ScatterDims.start
  rw [dif_neg hm]

/-- The row axis is inserted: the window coordinate there is `0`. -/
theorem window3_row (hiw : d.insertedWindowDims = [0]) (j : (⟨3, ![E, H, D]⟩ : Shape).Idx) :
    d.window j 0 = 0 := by
  have hm : ¬ (0 : Fin 3) ∈ d.sKept := by
    show ¬ (0 : Fin 3) ∈ Shape.kept _ d.insertedWindowDims
    rw [hiw]
    show ¬ (0 : Fin 3) ∈ (List.finRange 3).filter (fun a => a ∉ ([0] : List (Fin 3)))
    decide
  unfold ScatterDims.window
  rw [dif_neg hm]

/-- The window coordinate on the second axis is the update's second coordinate. -/
theorem window3_mid (huw : d.updateWindowDims = [1, 2]) (hiw : d.insertedWindowDims = [0])
    (e : Fin E) (h : Fin H) (k : Fin D) :
    d.window (ix3 e h k) 1 = h.val := by
  obtain ⟨uw, iw, sd, iv, wf⟩ := d
  subst huw hiw
  rfl

/-- The window coordinate on the third axis is the update's third coordinate. -/
theorem window3_last (huw : d.updateWindowDims = [1, 2]) (hiw : d.insertedWindowDims = [0])
    (e : Fin E) (h : Fin H) (k : Fin D) :
    d.window (ix3 e h k) 2 = k.val := by
  obtain ⟨uw, iw, sd, iv, wf⟩ := d
  subst huw hiw
  rfl

/-- Update `(e, h, k)` lands at operand index `(n, h', k')` exactly when its row number is `n`, `h = h'` and `k = k'`. -/
theorem resultIdx3 (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) (n : Fin N) (h' : Fin H) (k' : Fin D) :
    d.resultIdx? (ix3 e h k) idx = some (ix3 n h' k')
      ↔ (idx (ix2 e 0)).toInt = (n.val : Int) ∧ h = h' ∧ k = k' := by
  have s0 := start3_row d huw hiw hsd hiv idx e h k
  have s1 := start3_win d hsd idx (ix3 e h k) 1 (by decide)
  have s2 := start3_win d hsd idx (ix3 e h k) 2 (by decide)
  have w0 := window3_row d hiw (ix3 e h k)
  have w1 := window3_mid d huw hiw e h k
  have w2 := window3_last d huw hiw e h k
  unfold ScatterDims.resultIdx?
  split
  · rename_i hb
    constructor
    · intro he
      have hfun := Option.some.inj he
      have h0 : (d.start (ix3 e h k) idx 0 + d.window (ix3 e h k) 0).toNat = n.val :=
        congrArg Fin.val (congrFun hfun 0)
      have h1 : (d.start (ix3 e h k) idx 1 + d.window (ix3 e h k) 1).toNat = h'.val :=
        congrArg Fin.val (congrFun hfun 1)
      have h2 : (d.start (ix3 e h k) idx 2 + d.window (ix3 e h k) 2).toNat = k'.val :=
        congrArg Fin.val (congrFun hfun 2)
      have hh := (hb 0).1
      rw [s0, w0] at h0 hh
      rw [s1, w1] at h1
      rw [s2, w2] at h2
      exact ⟨by omega, Fin.ext (by omega), Fin.ext (by omega)⟩
    · rintro ⟨hn, rfl, rfl⟩
      congr 1
      funext a
      match a with
      | ⟨0, _⟩ =>
        exact Fin.ext (by
          show (d.start (ix3 e h k) idx 0 + d.window (ix3 e h k) 0).toNat = n.val
          rw [s0, w0]; omega)
      | ⟨1, _⟩ =>
        exact Fin.ext (by
          show (d.start (ix3 e h k) idx 1 + d.window (ix3 e h k) 1).toNat = h.val
          rw [s1, w1]; omega)
      | ⟨2, _⟩ =>
        exact Fin.ext (by
          show (d.start (ix3 e h k) idx 2 + d.window (ix3 e h k) 2).toNat = k.val
          rw [s2, w2]; omega)
  · rename_i hb
    constructor
    · intro he; exact absurd he (by simp)
    · rintro ⟨hn, rfl, rfl⟩
      exfalso; apply hb
      intro a
      match a with
      | ⟨0, _⟩ =>
        show 0 ≤ d.start (ix3 e h k) idx 0 + d.window (ix3 e h k) 0
          ∧ d.start (ix3 e h k) idx 0 + d.window (ix3 e h k) 0 < (N : Int)
        rw [s0, w0]; have := n.isLt; omega
      | ⟨1, _⟩ =>
        show 0 ≤ d.start (ix3 e h k) idx 1 + d.window (ix3 e h k) 1
          ∧ d.start (ix3 e h k) idx 1 + d.window (ix3 e h k) 1 < (H : Int)
        rw [s1, w1]; have := h.isLt; omega
      | ⟨2, _⟩ =>
        show 0 ≤ d.start (ix3 e h k) idx 2 + d.window (ix3 e h k) 2
          ∧ d.start (ix3 e h k) idx 2 + d.window (ix3 e h k) 2 < (D : Int)
        rw [s2, w2]; have := k.isLt; omega

/-- THE ROW SCATTER AT AN INDEX, rank 3: the operand at `(n, h, k)` plus the sum of `u (e, h, k)` over the updates
    `e` whose row number, read signed, is `n`. -/
theorem hostScatterAdd_rows3 (huw : d.updateWindowDims = [1, 2]) (hiw : d.insertedWindowDims = [0])
    (hsd : d.scatterDimsToOperandDims = [0]) (hiv : d.indexVectorDim = 1)
    (x : (⟨3, ![N, H, D]⟩ : Shape).Idx → EReal) (idx : IVec ⟨2, ![E, 1]⟩ 32)
    (u : (⟨3, ![E, H, D]⟩ : Shape).Idx → EReal) (n : Fin N) (h : Fin H) (k : Fin D) :
    Ideal.hostScatterAdd d x idx u (ix3 n h k)
      = x (ix3 n h k)
        + ∑ e ∈ Finset.univ.filter (fun e : Fin E => (idx (ix2 e 0)).toInt = (n.val : Int)), u (ix3 e h k) := by
  unfold Ideal.hostScatterAdd
  congr 1
  rw [Finset.sum_filter, Finset.sum_filter, sum_idx3]
  refine Finset.sum_congr rfl fun e _ => ?_
  simp only [resultIdx3 d huw hiw hsd hiv idx e]
  by_cases hn : (idx (ix2 e 0)).toInt = (n.val : Int)
  · simp [hn, ite_and]
  · simp [hn]

end Rank3

/-! ## The two ranks compared -/

/-- A rank-3 row scatter at `(n, h, k)` is a rank-2 row scatter at `(n, f)` over the same scatter indices, as soon
    as the operands agree at these two indices and the updates agree there in every row `e`. -/
theorem hostScatterAdd_rows3_eq_rows2 {N E H D F : Nat}
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (n : Fin N) (h : Fin H) (k : Fin D) (f : Fin F)
    (hx : x3 (ix3 n h k) = x2 (ix2 n f))
    (hu : ∀ e : Fin E, u3 (ix3 e h k) = u2 (ix2 e f)) :
    Ideal.hostScatterAdd d3 x3 idx u3 (ix3 n h k) = Ideal.hostScatterAdd d2 x2 idx u2 (ix2 n f) := by
  rw [hostScatterAdd_rows3 d3 huw3 hiw3 hsd3 hiv3, hostScatterAdd_rows2 d2 huw2 hiw2 hsd2 hiv2, hx]
  congr 1
  exact Finset.sum_congr rfl fun e _ => hu e

/-- The same when the rank-2 updates are the rank-3 ones with the last two axes laid out as one of length
    `F = H * D` (column `f` holding entry `(f / D, f % D)`): the rank-3 scatter at `(n, h, k)` is the rank-2 scatter at
    column `D * h + k`. -/
theorem hostScatterAdd_rows3_flat {N E H D F : Nat} (hF : F = H * D)
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (hu : ∀ (e : Fin E) (f : Fin F) (hq : f.val / D < H) (hr : f.val % D < D),
      u2 (ix2 e f) = u3 (ix3 e ⟨f.val / D, hq⟩ ⟨f.val % D, hr⟩))
    (n : Fin N) (h : Fin H) (k : Fin D) (f : Fin F) (hf : f.val = D * h.val + k.val)
    (hx : x3 (ix3 n h k) = x2 (ix2 n f)) :
    Ideal.hostScatterAdd d3 x3 idx u3 (ix3 n h k) = Ideal.hostScatterAdd d2 x2 idx u2 (ix2 n f) := by
  have hD : 0 < D := Nat.lt_of_le_of_lt (Nat.zero_le _) k.isLt
  have hq : f.val / D = h.val := by
    rw [hf, Nat.mul_add_div hD, Nat.div_eq_of_lt k.isLt, Nat.add_zero]
  have hr : f.val % D = k.val := by
    rw [hf, Nat.mul_add_mod, Nat.mod_eq_of_lt k.isLt]
  refine hostScatterAdd_rows3_eq_rows2 d3 huw3 hiw3 hsd3 hiv3 d2 huw2 hiw2 hsd2 hiv2 x3 x2 idx u3 u2 n h k f hx ?_
  intro e
  have hq' : f.val / D < H := by rw [hq]; exact h.isLt
  have hr' : f.val % D < D := by rw [hr]; exact k.isLt
  have e1 : (⟨f.val / D, hq'⟩ : Fin H) = h := Fin.ext hq
  have e2 : (⟨f.val % D, hr'⟩ : Fin D) = k := Fin.ext hr
  rw [hu e f hq' hr', e1, e2]

end ScatterRows
-- ==== Proof.LibScatter1.lean ====
import Idealize.ShloMosaic.Lib.ValueIdx

/-!
  A SCATTER ONTO A VECTOR READ AT AN INDEX.

  An accumulating scatter whose scatter indices are one column of entry numbers — operand `[N]`, updates `[E]`,
  indices `[E, 1]`, update `e` added onto operand entry `idx e` (a segment sum) — is, at the ideal values and at
  operand index `n`, the operand there plus the sum of `u e` over the updates `e` whose entry number is `n`.
  The entry number is read SIGNED and is not clamped: an update whose entry number lies outside `[0, N)` lands
  nowhere and is dropped.

  Every lemma takes an arbitrary dimension record `d` of the right shapes together with the four equations that
  say its lists are those of such a scatter; for a record given by literal lists each equation is `rfl`.
-/

open scoped BigOperators
open Idealize.ShloMosaic Idealize.ShloMosaic.ValueIdx

namespace Scatter1

/-! ## A sum over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Operand `[N]`, updates `[E]`, indices `[E, 1]` -/

variable {N E w : Nat} (d : ScatterDims ⟨1, ![N]⟩ ⟨2, ![E, 1]⟩ ⟨1, ![E]⟩)

/-- Update `e` reads its entry number at `(e, 0)` of the scatter indices. -/
theorem siIdx1 (huw : d.updateWindowDims = []) (hsd : d.scatterDimsToOperandDims = [0]) (hiv : d.indexVectorDim = 1)
    (e : Fin E) (c : Fin d.scatterDimsToOperandDims.length) :
    d.siIdx (ix1 e) c = ix2 e 0 := by
  obtain ⟨uw, iw, sd, iv, wf⟩ := d
  subst huw hsd hiv
  funext b
  match b with
  | ⟨0, _⟩ => rfl
  | ⟨1, _⟩ => exact Fin.ext (by have := c.isLt; simp at this; simpa [ScatterDims.siIdx] using this)

/-- The window of update `e` starts at its entry number, read signed. -/
theorem start1 (huw : d.updateWindowDims = []) (hsd : d.scatterDimsToOperandDims = [0]) (hiv : d.indexVectorDim = 1)
    (idx : IVec ⟨2, ![E, 1]⟩ w) (e : Fin E) :
    d.start (ix1 e) idx 0 = (idx (ix2 e 0)).toInt := by
  have hm : (0 : Fin 1) ∈ d.scatterDimsToOperandDims := by
    rw [hsd]; show (0 : Fin 1) ∈ ([0] : List (Fin 1)); decide
  unfold ScatterDims.start
  rw [dif_pos hm, siIdx1 d huw hsd hiv]

/-- The one operand axis is inserted: the window coordinate there is `0`. -/
theorem window1 (hiw : d.insertedWindowDims = [0]) (j : (⟨1, ![E]⟩ : Shape).Idx) :
    d.window j 0 = 0 := by
  have hm : ¬ (0 : Fin 1) ∈ d.sKept := by
    show ¬ (0 : Fin 1) ∈ Shape.kept _ d.insertedWindowDims
    rw [hiw]
    show ¬ (0 : Fin 1) ∈ (List.finRange 1).filter (fun a => a ∉ ([0] : List (Fin 1)))
    decide
  unfold ScatterDims.window
  rw [dif_neg hm]

/-- Update `e` lands at operand index `n` exactly when its entry number is `n`. -/
theorem resultIdx1 (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  have s0 := start1 d huw hsd hiv idx e
  have w0 := window1 d hiw (ix1 e)
  unfold ScatterDims.resultIdx?
  split
  · rename_i h
    constructor
    · intro he
      have hfun := Option.some.inj he
      have h0 : (d.start (ix1 e) idx 0 + d.window (ix1 e) 0).toNat = n.val :=
        congrArg Fin.val (congrFun hfun 0)
      have hh := (h 0).1
      rw [s0, w0] at h0 hh
      omega
    · intro hn
      congr 1
      funext a
      match a with
      | ⟨0, _⟩ =>
        exact Fin.ext (by
          show (d.start (ix1 e) idx 0 + d.window (ix1 e) 0).toNat = n.val
          rw [s0, w0]; omega)
  · rename_i h
    constructor
    · intro he; exact absurd he (by simp)
    · intro hn
      exfalso; apply h
      intro a
      match a with
      | ⟨0, _⟩ =>
        show 0 ≤ d.start (ix1 e) idx 0 + d.window (ix1 e) 0
          ∧ d.start (ix1 e) idx 0 + d.window (ix1 e) 0 < (N : Int)
        rw [s0, w0]; have := n.isLt; omega

/-- THE SCATTER ONTO A VECTOR AT AN INDEX: the operand at `n` plus the sum of `u e` over the updates `e` whose
    entry number, read signed, is `n`. -/
theorem hostScatterAdd_rows1 (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (u : (⟨1, ![E]⟩ : Shape).Idx → EReal) (n : Fin N) :
    Ideal.hostScatterAdd d x idx u (ix1 n)
      = x (ix1 n) + ∑ e ∈ Finset.univ.filter (fun e : Fin E => (idx (ix2 e 0)).toInt = (n.val : Int)), u (ix1 e) := by
  unfold Ideal.hostScatterAdd
  congr 1
  rw [Finset.sum_filter, Finset.sum_filter, sum_idx1]
  refine Finset.sum_congr rfl fun e _ => ?_
  simp only [resultIdx1 d huw hiw hsd hiv idx e]

end Scatter1
-- ==== Proof.RefValue.lean ====
/-
  The reference program's result as a closed form.

  The reference program numbers the voxels of every point, shifts the voxel number of a point of batch element `b`
  by `32768 b`, adds each point's 64 features onto the row with that number (and a one onto a counter with that
  number), and divides each row by the larger of its counter and one. Under the hypothesis that every voxel number
  is below 32768 the shifted numbers of different batch elements never meet, so row `32768 b + v` holds exactly the
  sum over the points of batch element `b` whose voxel number is `v`, and its counter their number: the
  specification's `total` and `count`. The result at `(b, f, x, y, z)` is then the specification's average.
-/
import proofs.«151853_j89756226552188_2_alg».proof.Proof.Gen.ReferenceIdeal.Read
import proofs.«151853_j89756226552188_2_alg».proof.Proof.Spec
import proofs.«151853_j89756226552188_2_alg».proof.Proof.LibHostScatterIdeal
import proofs.«151853_j89756226552188_2_alg».proof.Proof.LibScatterRows
import proofs.«151853_j89756226552188_2_alg».proof.Proof.LibScatter1
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The flat row number, as 32-bit words

The row an update lands on is the voxel number plus 32768 times the batch element, computed in wrapping
32-bit arithmetic. A voxel number below 32768 and a batch element below 8 give a sum below 262144, far from
wrapping and from the sign bit, so the signed reading of the row is the natural number itself, and the row
determines the batch element (its quotient by 32768) and the voxel number (its remainder). -/

theorem flat_toInt (w : BitVec 32) (hw : w.toNat < 32768) (b' b : Fin 8) (v : ℕ) (hv : v < 32768) :
    (IntOp.addi w (IntOp.muli (BitVec.ofNat 32 b'.val) 32768#32)).toInt = ((b.val * 32768 + v : ℕ) : ℤ)
      ↔ b' = b ∧ w = BitVec.ofNat 32 v := by
  have hb' := b'.isLt
  have hb := b.isLt
  have hn : (IntOp.addi w (IntOp.muli (BitVec.ofNat 32 b'.val) 32768#32)).toNat = w.toNat + b'.val * 32768 := by
    show (w + BitVec.ofNat 32 b'.val * 32768#32).toNat = _
    rw [BitVec.toNat_add, BitVec.toNat_mul, BitVec.toNat_ofNat, BitVec.toNat_ofNat]
    omega
  have hi : (IntOp.addi w (IntOp.muli (BitVec.ofNat 32 b'.val) 32768#32)).toInt
      = ((w.toNat + b'.val * 32768 : ℕ) : ℤ) := by
    rw [BitVec.toInt_eq_toNat_of_lt (by rw [hn]; omega), hn]
  rw [hi]
  constructor
  · intro h
    have h' : w.toNat + b'.val * 32768 = b.val * 32768 + v := by exact_mod_cast h
    refine ⟨Fin.ext (by omega), ?_⟩
    apply BitVec.eq_of_toNat_eq
    rw [BitVec.toNat_ofNat]; omega
  · rintro ⟨rfl, rfl⟩
    rw [BitVec.toNat_ofNat]
    have : v % 2 ^ 32 = v := by omega
    rw [this, Nat.add_comm]

/-! ## The updates, numbered flat, as pairs (batch element, point)

Update number `e` below 800000 is point `e % 100000` of batch element `e / 100000`. -/

/-- The batch element of update `e`. -/
def eb (e : Fin 800000) : Fin 8 := ⟨e.val / 100000, by have := e.isLt; omega⟩
/-- The point of update `e`. -/
def en (e : Fin 800000) : Fin 100000 := ⟨e.val % 100000, by omega⟩

/-- The updates are the pairs (batch element, point). -/
def flatEquiv : Fin 800000 ≃ Fin 8 × Fin 100000 where
  toFun e := (eb e, en e)
  invFun p := ⟨p.1.val * 100000 + p.2.val, by have := p.1.isLt; have := p.2.isLt; omega⟩
  left_inv e := Fin.ext (by show e.val / 100000 * 100000 + e.val % 100000 = e.val; omega)
  right_inv p := by
    obtain ⟨a, c⟩ := p
    have := a.isLt; have := c.isLt
    refine Prod.ext (Fin.ext ?_) (Fin.ext ?_)
    · show (a.val * 100000 + c.val) / 100000 = a.val; omega
    · show (a.val * 100000 + c.val) % 100000 = c.val; omega

/-- A sum over the updates is the double sum over batch elements and points. -/
theorem sum_flat {M : Type*} [AddCommMonoid M] (h : Fin 8 → Fin 100000 → M) :
    ∑ e : Fin 800000, h (eb e) (en e) = ∑ b' : Fin 8, ∑ n : Fin 100000, h b' n := by
  rw [← Fintype.sum_prod_type (f := fun p : Fin 8 × Fin 100000 => h p.1 p.2)]
  exact Fintype.sum_equiv flatEquiv _ _ (fun e => rfl)

/-! ## The scatter's operands read at an update

The row number of update `e` is the voxel number of its point plus 32768 times its batch element; the update
row `e` of the features holds, at channel `f`, the feature of that point. -/

theorem flat_read (x1 : (⟨S8x3x100000, .f32⟩ : BufTy).Contents (Elt Ideal)) (e : Fin 800000) :
    Read.val_main_v44 (F := Ideal) x1 (ix2 e 0)
      = IntOp.addi (Read.val_main_v33 (F := Ideal) x1 (ix2 (eb e) (en e)))
          (IntOp.muli (BitVec.ofNat 32 (eb e).val) 32768#32) := by
  rw [Read.val_main_v44_apply, Read.val_main_v40_apply, Read.val_main_v39_apply, Read.val_main_v38_apply,
    Read.val_main_v37_apply, Read.val_main_v35_apply, Read.val_main_v34_apply, Read.val_main_v36_apply,
    Read.val_main_c_9_apply]
  rfl

theorem flat_read' (x1 : (⟨S8x3x100000, .f32⟩ : BufTy).Contents (Elt Ideal)) (e : Fin 800000) :
    Read.val_main_v48 (F := Ideal) x1 (ix2 e 0)
      = IntOp.addi (Read.val_main_v33 (F := Ideal) x1 (ix2 (eb e) (en e)))
          (IntOp.muli (BitVec.ofNat 32 (eb e).val) 32768#32) := by
  rw [Read.val_main_v48_apply, Read.val_main_v40_apply, Read.val_main_v39_apply, Read.val_main_v38_apply,
    Read.val_main_v37_apply, Read.val_main_v35_apply, Read.val_main_v34_apply, Read.val_main_v36_apply,
    Read.val_main_c_9_apply]
  rfl

theorem feat_read (x0 : (⟨S8x64x100000, .f32⟩ : BufTy).Contents (Elt Ideal)) (e : Fin 800000) (f : Fin 64) :
    Read.val_main_v42 (F := Ideal) x0 (ix2 e f) = x0 (ix3 (eb e) f (en e)) := by
  rw [Read.val_main_v42_apply, Read.val_main_v41_apply]
  have he := e.isLt
  have hf := f.isLt
  refine congrArg x0 (funext fun a => ?_)
  match a with
  | ⟨0, _⟩ => exact Fin.ext (by show (e.val * 64 + f.val) / 6400000 = e.val / 100000; omega)
  | ⟨1, _⟩ => exact Fin.ext (by show (e.val * 64 + f.val) % 64 = f.val; omega)
  | ⟨2, _⟩ => exact Fin.ext (by show (e.val * 64 + f.val) / 64 % 100000 = e.val % 100000; omega)

/-! ## The two scatters read at a row

Row `b * 32768 + v` of the summed features collects exactly the updates of batch element `b` whose voxel
number is `v`: the scatter's sum over the updates landing on the row is re-indexed over (batch element, point),
every batch element other than `b` contributes nothing, and what remains is the specification's `total`.
The counts are the same scatter with every update equal to one. -/

theorem sums_eq (x0 : (⟨S8x64x100000, .f32⟩ : BufTy).Contents (Elt Ideal))
    (x1 : (⟨S8x3x100000, .f32⟩ : BufTy).Contents (Elt Ideal))
    (hr : ∀ j : S8x100000.Idx, (Read.val_main_v33 (F := Ideal) x1 j).toNat < 32768)
    (b : Fin 8) (f : Fin 64) (v : ℕ) (hv : v < 32768) (row : Fin 262144) (hrow : row.val = b.val * 32768 + v) :
    Read.val_main_v45 (F := Ideal) x0 x1 (ix2 row f)
      = VoxelAvg.total x0 (Read.val_main_v33 (F := Ideal) x1) b f v := by
  unfold Read.val_main_v45
  rw [Host.scatterAdd_ideal,
    ScatterRows.hostScatterAdd_rows2 scatter_S262144x64_S800000x1_S800000x64_1_0_0_1 rfl rfl rfl rfl,
    Read.val_main_v43_apply, Read.val_main_cst_10_apply, Ideal.ofBits_def, Ideal.ofBits_zero_f32, zero_add,
    Finset.sum_filter]
  have hrow' : (row.val : ℤ) = ((b.val * 32768 + v : ℕ) : ℤ) := by rw [hrow]
  rw [hrow']
  have step : ∀ e : Fin 800000,
      (if (Read.val_main_v44 (F := Ideal) x1 (ix2 e 0)).toInt = ((b.val * 32768 + v : ℕ) : ℤ)
        then Read.val_main_v42 (F := Ideal) x0 (ix2 e f) else 0)
      = if eb e = b ∧ Read.val_main_v33 (F := Ideal) x1 (ix2 (eb e) (en e)) = BitVec.ofNat 32 v
          then x0 (ix3 (eb e) f (en e)) else (0 : EReal) := by
    intro e
    rw [flat_read, feat_read]
    exact if_congr (flat_toInt _ (hr _) (eb e) b v hv) rfl rfl
  refine (Finset.sum_congr rfl fun e _ => step e).trans ?_
  refine (sum_flat (fun (b' : Fin 8) (n : Fin 100000) =>
    if b' = b ∧ Read.val_main_v33 (F := Ideal) x1 (ix2 b' n) = BitVec.ofNat 32 v
      then x0 (ix3 b' f n) else (0 : EReal))).trans ?_
  unfold VoxelAvg.total
  rw [Finset.sum_eq_single b]
  · refine Finset.sum_congr rfl fun n _ => ?_
    exact if_congr (by simp) rfl rfl
  · intro b' _ hb'
    refine Finset.sum_eq_zero fun n _ => ?_
    rw [if_neg (fun h => hb' h.1)]
  · intro h; exact absurd (Finset.mem_univ b) h

theorem cnts_eq (x1 : (⟨S8x3x100000, .f32⟩ : BufTy).Contents (Elt Ideal))
    (hr : ∀ j : S8x100000.Idx, (Read.val_main_v33 (F := Ideal) x1 j).toNat < 32768)
    (b : Fin 8) (v : ℕ) (hv : v < 32768) (row : Fin 262144) (hrow : row.val = b.val * 32768 + v) :
    Read.val_main_v49 (F := Ideal) x1 (ix1 row)
      = VoxelAvg.count (Read.val_main_v33 (F := Ideal) x1) b v := by
  unfold Read.val_main_v49
  rw [Host.scatterAdd_ideal,
    Scatter1.hostScatterAdd_rows1 scatter_S262144_S800000x1_S800000_n_0_0_1 rfl rfl rfl rfl,
    Read.val_main_v47_apply, Read.val_main_cst_12_apply, Ideal.ofBits_def, Ideal.ofBits_zero_f32, zero_add,
    Finset.sum_filter]
  have hrow' : (row.val : ℤ) = ((b.val * 32768 + v : ℕ) : ℤ) := by rw [hrow]
  rw [hrow']
  have step : ∀ e : Fin 800000,
      (if (Read.val_main_v48 (F := Ideal) x1 (ix2 e 0)).toInt = ((b.val * 32768 + v : ℕ) : ℤ)
        then Read.val_main_v46 (F := Ideal) (ix1 e) else 0)
      = if eb e = b ∧ Read.val_main_v33 (F := Ideal) x1 (ix2 (eb e) (en e)) = BitVec.ofNat 32 v
          then (1 : EReal) else 0 := by
    intro e
    rw [flat_read', Read.val_main_v46_apply, Read.val_main_cst_11_apply, Ideal.ofBits_def, Ideal.ofBits_one_f32]
    exact if_congr (flat_toInt _ (hr _) (eb e) b v hv) rfl rfl
  refine (Finset.sum_congr rfl fun e _ => step e).trans ?_
  refine (sum_flat (fun (b' : Fin 8) (n : Fin 100000) =>
    if b' = b ∧ Read.val_main_v33 (F := Ideal) x1 (ix2 b' n) = BitVec.ofNat 32 v
      then (1 : EReal) else 0)).trans ?_
  unfold VoxelAvg.count
  rw [Finset.sum_eq_single b]
  · refine Finset.sum_congr rfl fun n _ => ?_
    exact if_congr (by simp) rfl rfl
  · intro b' _ hb'
    refine Finset.sum_eq_zero fun n _ => ?_
    rw [if_neg (fun h => hb' h.1)]
  · intro h; exact absurd (Finset.mem_univ b) h

/-! ## The result grid

At `(b, f, x, y, z)` the transposed, reshaped quotient is read at row `b * 32768 + vox x y z` and channel `f`
of the rows: the summed features there over the larger of the count there and one. -/

theorem ref_grid (x0 : (⟨S8x64x100000, .f32⟩ : BufTy).Contents (Elt Ideal))
    (x1 : (⟨S8x3x100000, .f32⟩ : BufTy).Contents (Elt Ideal))
    (hr : ∀ j : S8x100000.Idx, (Read.val_main_v33 (F := Ideal) x1 j).toNat < 32768) :
    Read.val_main_v56 (F := Ideal) x0 x1 = VoxelAvg.avg x0 (Read.val_main_v33 (F := Ideal) x1) := by
  funext i
  obtain ⟨b, f, x, y, z, rfl⟩ : ∃ b f x y z, i = ix5 b f x y z := ⟨i 0, i 1, i 2, i 3, i 4, eq_ix5 i⟩
  have hb := b.isLt
  have hf := f.isLt
  have hx := x.isLt
  have hy := y.isLt
  have hz := z.isLt
  have hv := VoxelAvg.vox_lt x y z
  have hrow : b.val * 32768 + VoxelAvg.vox x y z < 262144 := by omega
  have hidx : Read.idx_main_v55 (Read.idx_main_v56 (ix5 b f x y z))
      = ix2 (⟨b.val * 32768 + VoxelAvg.vox x y z, hrow⟩ : Fin 262144) f := by
    funext a
    match a with
    | ⟨0, _⟩ =>
      exact Fin.ext (by
        show ((((b.val * 32 + x.val) * 32 + y.val) * 32 + z.val) * 64 + f.val) / 64
          = b.val * 32768 + VoxelAvg.vox x y z
        unfold VoxelAvg.vox; omega)
    | ⟨1, _⟩ =>
      exact Fin.ext (by
        show ((((b.val * 32 + x.val) * 32 + y.val) * 32 + z.val) * 64 + f.val) % 64 = f.val
        omega)
  have hidx2 : Read.idx_main_v52 (Read.idx_main_v53
      (ix2 (⟨b.val * 32768 + VoxelAvg.vox x y z, hrow⟩ : Fin 262144) f))
      = ix1 (⟨b.val * 32768 + VoxelAvg.vox x y z, hrow⟩ : Fin 262144) := by
    funext a
    match a with
    | ⟨0, _⟩ => rfl
  rw [VoxelAvg.avg_ix5, Read.val_main_v56_apply, Read.val_main_v55_apply, hidx, Read.val_main_v54_apply,
    Ideal.hostDivf_def, Read.val_main_v53_apply, Read.val_main_v52_apply, hidx2, Read.val_main_v51_apply,
    Ideal.maximumf_def, Read.val_main_v50_apply, Read.val_main_cst_13_apply, Ideal.ofBits_def,
    Ideal.ofBits_one_f32,
    sums_eq x0 x1 hr b f _ hv ⟨b.val * 32768 + VoxelAvg.vox x y z, hrow⟩ rfl,
    cnts_eq x1 hr b _ hv ⟨b.val * 32768 + VoxelAvg.vox x y z, hrow⟩ rfl]
  rfl

end Cert.ReferenceIdeal.RefValue

end
-- ==== Proof.LibBlocks.lean ====
/-
  A sum over `a · b` consecutive indices, block by block.
-/
import Mathlib.Algebra.BigOperators.Fin
import Mathlib.Logic.Equiv.Fin.Basic

namespace Cert.LibBlocks

open Finset

/-- A sum over `Fin (a * b)` is the sum, over the `a` blocks of `b` consecutive indices, of the sums over each
    block: index `n + b * s` is element `n` of block `s`. -/
theorem sum_fin_mul {M : Type*} [AddCommMonoid M] (a b : ℕ) (g : Fin (a * b) → M) :
    ∑ N, g N = ∑ s : Fin a, ∑ n : Fin b, g (finProdFinEquiv (s, n)) := by
  rw [← Equiv.sum_comp (finProdFinEquiv (m := a) (n := b)) g, Fintype.sum_prod_type]

/-- The index `finProdFinEquiv` names. -/
theorem finProdFinEquiv_val {a b : ℕ} (s : Fin a) (n : Fin b) : (finProdFinEquiv (s, n)).val = n.val + b * s.val := rfl

end Cert.LibBlocks
-- ==== Proof.VoxRange.lean ====
/-
  Two facts about the reference program's voxel grid.

  Part A. Each coordinate is clipped to the interval [0, 31], rounded to the nearest integer (ties to even) and read
  as a 32-bit word, so the word holds an integer between 0 and 31; the voxel number (c₀ · 32 + c₁) · 32 + c₂ built
  from three such words is therefore below 32³ = 32768 and the 32-bit arithmetic never wraps.

  Part B. 25 tiles of 4096 consecutive indices cover 0 … 102399; when the terms from 100000 on vanish, the sum over
  the tiles is the sum over the first 100000 indices.
-/
import proofs.«151853_j89756226552188_2_alg».proof.Proof.Gen.ReferenceIdeal.Read
import proofs.«151853_j89756226552188_2_alg».proof.Proof.LibBlocks

namespace Cert.ReferenceIdeal.VoxRange

open Cert.ReferenceIdeal Cert.ReferenceIdeal.Gen Idealize.ShloMosaic Idealize.ShloMosaic.TcCoe Idealize.SL.Sem
  Idealize.ShloMosaic.StableHlo

/-- Clipping any extended real to `[0, 31]` gives a real number of that interval: the clipped value lies between the
    two reals `0` and `31`, so it is neither infinity. -/
theorem clip_real (y : EReal) :
    ∃ r : ℝ, 0 ≤ r ∧ r ≤ 31 ∧ min ((31 : ℝ) : EReal) (max 0 y) = (r : EReal) := by
  have h0 : (0 : EReal) ≤ min ((31 : ℝ) : EReal) (max 0 y) :=
    le_min (by exact_mod_cast (by norm_num : (0 : ℝ) ≤ 31)) (le_max_left _ _)
  have h31 : min ((31 : ℝ) : EReal) (max 0 y) ≤ ((31 : ℝ) : EReal) := min_le_left _ _
  generalize min ((31 : ℝ) : EReal) (max 0 y) = z at h0 h31
  induction z using EReal.rec with
  | bot => exact absurd h0 (not_le.mpr EReal.bot_lt_zero)
  | coe r => exact ⟨r, by exact_mod_cast h0, by exact_mod_cast h31, rfl⟩
  | top => exact absurd h31 (not_le.mpr (EReal.coe_lt_top 31))

/-- Rounding to nearest, ties to even, keeps a real of `[0, 31]` inside `[0, 31]`: the result is the floor `f` or
    `f + 1`, and it is `f + 1` only when the fractional part is at least one half, which forces `f ≤ 30`. -/
theorem roundHalfEven_bounds (r : ℝ) (h0 : 0 ≤ r) (h31 : r ≤ 31) :
    0 ≤ Ideal.roundHalfEven r ∧ Ideal.roundHalfEven r ≤ 31 := by
  have hf0 : 0 ≤ ⌊r⌋ := Int.floor_nonneg.mpr h0
  have hfr : (⌊r⌋ : ℝ) ≤ r := Int.floor_le r
  have hf31 : ⌊r⌋ ≤ 31 := by
    have : (⌊r⌋ : ℝ) ≤ 31 := hfr.trans h31
    exact_mod_cast this
  have hstep : ¬ (r - ⌊r⌋ < 1 / 2) → ⌊r⌋ + 1 ≤ 31 := fun h => by
    have h' : (⌊r⌋ : ℝ) < 31 := by linarith [not_lt.mp h]
    have : ⌊r⌋ < 31 := by exact_mod_cast h'
    omega
  unfold Ideal.roundHalfEven
  simp only []
  split_ifs with h1 h2 h3
  · exact ⟨hf0, hf31⟩
  · exact ⟨by omega, hstep h1⟩
  · exact ⟨hf0, hf31⟩
  · exact ⟨by omega, hstep h1⟩

/-- The word of an integer between `0` and `31`, converted from its real value, reads back as that integer. -/
theorem fptosi_small (k : ℤ) (k0 : 0 ≤ k) (k31 : k ≤ 31) :
    (Ideal.fptosi 32 (((k : ℝ)) : EReal)).toNat ≤ 31 := by
  have hk : (0 : ℝ) ≤ (k : ℝ) := by exact_mod_cast k0
  rw [Ideal.fptosi, Ideal.toIntClamped_coe, if_pos hk, Int.floor_intCast, BitVec.toNat_ofInt]
  norm_num
  omega

/-- The coordinate word of any extended real: clip to `[0, 31]`, round, convert; the word is at most `31`. -/
theorem coord_word (y : EReal) :
    (Ideal.fptosi 32 (Ideal.liftRound Ideal.roundHalfEven (min ((31 : ℝ) : EReal) (max 0 y)))).toNat ≤ 31 := by
  obtain ⟨r, h0, h31, hr⟩ := clip_real y
  rw [hr, Ideal.liftRound_coe]
  obtain ⟨k0, k31⟩ := roundHalfEven_bounds r h0 h31
  exact fptosi_small _ k0 k31

/-- Three words at most `31` combine, in 32-bit arithmetic, to a number below `32³`: no step wraps. -/
theorem word_lt (c0 c1 c2 : BitVec 32) (h0 : c0.toNat ≤ 31) (h1 : c1.toNat ≤ 31) (h2 : c2.toNat ≤ 31) :
    (IntOp.addi (IntOp.muli (IntOp.addi (IntOp.muli c0 32#32) c1) 32#32) c2).toNat < 32768 := by
  have h32 : (32#32 : BitVec 32).toNat = 32 := rfl
  rw [IntOp.addi, IntOp.muli, IntOp.addi, IntOp.muli, BitVec.toNat_add, BitVec.toNat_mul, BitVec.toNat_add,
    BitVec.toNat_mul, h32]
  omega

/-- The constant `31`, converted from its 32-bit word, is the real number `31`. -/
theorem sitofp_31 : FloatOps.sitofp (F := Ideal) .f32 (31#32 : BitVec 32) = ((31 : ℝ) : EReal) := by
  show (((31#32 : BitVec 32).toInt : ℝ) : EReal) = ((31 : ℝ) : EReal)
  have h : (31#32 : BitVec 32).toInt = 31 := by decide
  rw [h]
  norm_num

/-- Every coordinate word of the reference program is at most `31`: it is the word of a clipped, rounded value. -/
theorem coord_le (x1 : (⟨S8x3x100000, .f32⟩ : BufTy).Contents (Elt Ideal)) (i : S8x3x100000.Idx) :
    (Read.val_main_v21 (F := Ideal) x1 i).toNat ≤ 31 := by
  rw [Read.val_main_v21_apply, Read.val_main_v20_apply, Read.val_main_v19_apply, Read.val_main_call1_v4_apply,
    Read.val_main_call1_v3_apply, Read.val_main_c_apply, Read.val_main_call1_v2_apply, Read.val_main_call1_v1_apply,
    Read.val_main_call1_v0_apply, Read.val_main_cst_6_apply, sitofp_31, Ideal.ofBits_def, Ideal.ofBits_zero_f32]
  simp only [Ideal.hostUnary_roundeven_def, Ideal.minimumf_def, Ideal.maximumf_def]
  exact coord_word _

/-- The voxel number of the reference program is below `32³ = 32768` at every point: it is
    `(c₀ · 32 + c₁) · 32 + c₂` for the three coordinate words of the point, each at most `31`. -/
theorem vox_range (x1 : (⟨S8x3x100000, .f32⟩ : BufTy).Contents (Elt Ideal)) (j : S8x100000.Idx) :
    (Read.val_main_v33 (F := Ideal) x1 j).toNat < 32768 := by
  rw [Read.val_main_v33_apply, Read.val_main_v30_apply, Read.val_main_v28_apply, Read.val_main_v25_apply,
    Read.val_main_v24_apply, Read.val_main_c_7_apply, Read.val_main_v29_apply, Read.val_main_c_8_apply,
    Read.val_main_v23_apply, Read.val_main_v22_apply, Read.val_main_v27_apply, Read.val_main_v26_apply,
    Read.val_main_v32_apply, Read.val_main_v31_apply]
  exact word_lt _ _ _ (coord_le x1 _) (coord_le x1 _) (coord_le x1 _)

end Cert.ReferenceIdeal.VoxRange

namespace Cert.PadBlocks

open Finset

/-- 25 tiles of 4096 consecutive indices cover `0 … 102399`; when the terms from `100000` on vanish, the sum over the
    tiles is the sum over the first `100000` indices. -/
theorem sum_tiles_pad {M : Type*} [AddCommMonoid M] (h : ℕ → M) (hz : ∀ p, 100000 ≤ p → p < 102400 → h p = 0) :
    ∑ n : Fin 25, ∑ k : Fin 4096, h (n.val * 4096 + k.val) = ∑ p : Fin 100000, h p.val := by
  -- the tiles, laid end to end, are the indices below 25 · 4096
  have e1 : ∑ n : Fin 25, ∑ k : Fin 4096, h (n.val * 4096 + k.val) = ∑ N : Fin (25 * 4096), h N.val := by
    rw [Cert.LibBlocks.sum_fin_mul 25 4096 (fun N => h N.val)]
    refine Finset.sum_congr rfl fun s _ => Finset.sum_congr rfl fun n _ => ?_
    show h (s.val * 4096 + n.val) = h (finProdFinEquiv (s, n)).val
    rw [Cert.LibBlocks.finProdFinEquiv_val, Nat.mul_comm 4096 s.val, Nat.add_comm]
  rw [e1, Fin.sum_univ_eq_sum_range (fun p => h p) (25 * 4096), Fin.sum_univ_eq_sum_range (fun p => h p) 100000]
  -- the indices from 100000 on contribute nothing
  refine (Finset.sum_subset (Finset.range_subset_range.mpr (by norm_num)) fun p hp hnp => ?_).symm
  rw [Finset.mem_range] at hp hnp
  exact hz p (by omega) (by omega)

end Cert.PadBlocks
-- ==== Proof.LoopVal.lean ====
/-
  The counted loop of the kernel body, as a value.

  The body visits the 32 tiles of 1024 voxels in turn. Trip `j` reads tile `j` of each accumulator
  (columns `1024 j … 1024 j + 1023`), adds to it the matching rows of that trip's matrix product and
  stores it back. No trip touches another trip's tile, so after `k` trips the accumulator holds, on
  the tiles `j < k`, the trip's payload applied to what the tile held at loop entry, and on the other
  tiles what it held at loop entry. Both statements are by induction on `k`, reading the newest
  stored piece first.
-/
import proofs.«151853_j89756226552188_2_alg».proof.Proof.Gen.KernelIdeal.Loops
import Idealize.ShloMosaic.Lib.WritesUnit
import Idealize.ShloMosaic.Lib.ValueIdx
import Idealize.ShloMosaic.Lib.Pipeline.FrameBody

set_option maxRecDepth 16384

noncomputable section

namespace Cert.KernelIdeal.LoopVal

open Idealize.ShloMosaic Idealize.ShloMosaic.TcCoe Idealize.SL.Sem Idealize.ShloMosaic.ValueIdx
open Cert.KernelIdeal Cert.KernelIdeal.Gen

variable {F : FTy → Type} [FloatOps F]

theorem trips_le : k0_t1_loop.trips ≤ 32 := k0_t1_abs.2.1

/-- Column `1024 j + q` of a 32768-column array, for a tile `j` and a position `q` in the tile. -/
def col (j : Fin k0_t1_loop.trips) (q : Fin 1024) : Fin 32768 :=
  ⟨1024 * j.val + q.val, by have := j.isLt; have := trips_le; have := q.isLt; omega⟩

/-- Tile `j` of the sums accumulator. -/
def tile5 (X : S64x32768.Idx → Elt F .f32) (j : Fin k0_t1_loop.trips) : Vec F S64x1024 .f32 :=
  fun x => X (ix2 (x 0) (col j (x 1)))

/-- Tile `j` of the counts accumulator. -/
def tile6 (X : S1x32768.Idx → Elt F .f32) (j : Fin k0_t1_loop.trips) : Vec F S1x1024 .f32 :=
  fun x => X (ix2 (x 0) (col j (x 1)))

/-- The sums accumulator after `k` trips, read at row `r`, tile `j`, position `q`. -/
theorem read_pb5 (𝒱 : Variants) (c : Dev nD) (bd : Option 𝒱.V) (i : grid0.Coords) (arg2 : Memref sig .tc .vmem S1x1x4096 .i32) (harg2 : arg2.IsWhole) (arg3 : Memref sig .tc .vmem S1x65x4096 .bf16) (harg3 : arg3.IsWhole) (arg4 : Memref sig .tc .vmem S1x64x32768 .f32) (harg4 : arg4.IsWhole) (arg5 : Memref sig .tc .vmem S64x32768 .f32) (harg5 : arg5.IsWhole) (arg6 : Memref sig .tc .vmem S1x32768 .f32) (harg6 : arg6.IsWhole) (v3 : Vec F S1x1x4096 .i32) (v5 : Vec F S1x65x4096 .bf16) (G5 : BufTy.Contents (Elt F) arg5.view.ty) (G6 : BufTy.Contents (Elt F) arg6.view.ty)
    (k : ℕ) (hk : k ≤ k0_t1_loop.trips) (r : Fin 64) (j : Fin k0_t1_loop.trips) (q : Fin 1024) :
    arg5.view.read (Elt F) (arg5.view.writes (Elt F) G5 (pb_k0_t1 (F := F) 𝒱 c bd i arg2 harg2 arg3 harg3 arg4 harg4 arg5 harg5 arg6 harg6 v3 v5 G5 G6 k).1) (ix2 r (col j q))
      = if j.val < k then k0_pay4 v3 v5 j (tile5 (arg5.view.read (Elt F) G5) j) (ix2 r q)
        else arg5.view.read (Elt F) G5 (ix2 r (col j q)) := by
  induction k generalizing r j q with
  | zero =>
    rw [if_neg (Nat.not_lt_zero _)]
    rfl
  | succ k ih =>
    have hk' : k < k0_t1_loop.trips := hk
    have ih := fun r j q => ih (Nat.le_of_lt hk') r j q
    rw [pb_k0_t1_succ 𝒱 c bd i arg2 harg2 arg3 harg3 arg4 harg4 arg5 harg5 arg6 harg6 v3 v5 G5 G6 ⟨k, hk'⟩]
    dsimp only
    unfold trip_k0_t1
    dsimp only
    rw [List.singleton_append]
    rcases Nat.lt_trichotomy j.val k with hlt | heq | hgt
    · -- an earlier tile: the new piece misses it on the column axis
      rw [if_pos (Nat.lt_succ_of_lt hlt)]
      refine (View.read_writes_cons_unit_of_not_mem arg5.view G5 (k0_off1_inb ⟨k, hk'⟩) _ _ (ix2 r (col j q))
        (k0_off1_eq ⟨k, hk'⟩) (1 : Fin 2) (Or.inl ?_)).trans ?_
      · show 1024 * j.val + q.val < 1024 * k
        have := q.isLt; omega
      · rw [ih, if_pos hlt]
    · -- the tile this trip stores
      obtain rfl : j = ⟨k, hk'⟩ := Fin.ext heq
      rw [if_pos (Nat.lt_succ_self k)]
      refine (View.read_writes_cons_unit_of_mem arg5.view G5 (k0_off1_inb ⟨k, hk'⟩) _ _ (ix2 r (col ⟨k, hk'⟩ q)) (ix2 r q)
        (k0_off1_eq ⟨k, hk'⟩) ?_).trans ?_
      · intro a
        match a with
        | ⟨0, _⟩ => show r.val = 0 + r.val; omega
        | ⟨1, _⟩ => rfl
      · congr 1
        funext x
        rw [View.readAt_eq_ld]
        have he : (Rect.unit (s := S64x32768) (k0_off1 ⟨k, hk'⟩) S64x1024.size (k0_off1_inb ⟨k, hk'⟩)).emb x
            = ix2 (x 0) (col ⟨k, hk'⟩ (x 1)) := by
          funext a
          apply Fin.ext
          have h0 : k0_off1 ⟨k, hk'⟩ 0 = 0 := congrFun (k0_off1_eq ⟨k, hk'⟩) 0
          have h1 : k0_off1 ⟨k, hk'⟩ 1 = 1024 * k := congrFun (k0_off1_eq ⟨k, hk'⟩) 1
          match a with
          | ⟨0, _⟩ =>
            show k0_off1 ⟨k, hk'⟩ 0 + 1 * (x 0).val = (x 0).val
            omega
          | ⟨1, _⟩ =>
            show k0_off1 ⟨k, hk'⟩ 1 + 1 * (x 1).val = 1024 * k + (x 1).val
            omega
        show arg5.view.read (Elt F) _ ((Rect.unit (s := S64x32768) (k0_off1 ⟨k, hk'⟩) S64x1024.size (k0_off1_inb ⟨k, hk'⟩)).emb x) = _
        rw [he]
        exact (ih (x 0) ⟨k, hk'⟩ (x 1)).trans (if_neg (Nat.lt_irrefl k))
    · -- a later tile: untouched so far
      rw [if_neg (by omega)]
      refine (View.read_writes_cons_unit_of_not_mem arg5.view G5 (k0_off1_inb ⟨k, hk'⟩) _ _ (ix2 r (col j q))
        (k0_off1_eq ⟨k, hk'⟩) (1 : Fin 2) (Or.inr ?_)).trans ?_
      · show 1024 * k + 1024 ≤ 1024 * j.val + q.val
        omega
      · rw [ih, if_neg (by omega)]

/-- The counts accumulator after `k` trips, read at its one row `r`, tile `j`, position `q`. -/
theorem read_pb6 (𝒱 : Variants) (c : Dev nD) (bd : Option 𝒱.V) (i : grid0.Coords) (arg2 : Memref sig .tc .vmem S1x1x4096 .i32) (harg2 : arg2.IsWhole) (arg3 : Memref sig .tc .vmem S1x65x4096 .bf16) (harg3 : arg3.IsWhole) (arg4 : Memref sig .tc .vmem S1x64x32768 .f32) (harg4 : arg4.IsWhole) (arg5 : Memref sig .tc .vmem S64x32768 .f32) (harg5 : arg5.IsWhole) (arg6 : Memref sig .tc .vmem S1x32768 .f32) (harg6 : arg6.IsWhole) (v3 : Vec F S1x1x4096 .i32) (v5 : Vec F S1x65x4096 .bf16) (G5 : BufTy.Contents (Elt F) arg5.view.ty) (G6 : BufTy.Contents (Elt F) arg6.view.ty)
    (k : ℕ) (hk : k ≤ k0_t1_loop.trips) (r : Fin 1) (j : Fin k0_t1_loop.trips) (q : Fin 1024) :
    arg6.view.read (Elt F) (arg6.view.writes (Elt F) G6 (pb_k0_t1 (F := F) 𝒱 c bd i arg2 harg2 arg3 harg3 arg4 harg4 arg5 harg5 arg6 harg6 v3 v5 G5 G6 k).2) (ix2 r (col j q))
      = if j.val < k then k0_pay5 v3 v5 j (tile6 (arg6.view.read (Elt F) G6) j) (ix2 r q)
        else arg6.view.read (Elt F) G6 (ix2 r (col j q)) := by
  induction k generalizing r j q with
  | zero =>
    rw [if_neg (Nat.not_lt_zero _)]
    rfl
  | succ k ih =>
    have hk' : k < k0_t1_loop.trips := hk
    have ih := fun r j q => ih (Nat.le_of_lt hk') r j q
    rw [pb_k0_t1_succ 𝒱 c bd i arg2 harg2 arg3 harg3 arg4 harg4 arg5 harg5 arg6 harg6 v3 v5 G5 G6 ⟨k, hk'⟩]
    dsimp only
    unfold trip_k0_t1
    dsimp only
    rw [List.singleton_append]
    rcases Nat.lt_trichotomy j.val k with hlt | heq | hgt
    · -- an earlier tile: the new piece misses it on the column axis
      rw [if_pos (Nat.lt_succ_of_lt hlt)]
      refine (View.read_writes_cons_unit_of_not_mem arg6.view G6 (k0_off2_inb ⟨k, hk'⟩) _ _ (ix2 r (col j q))
        (k0_off2_eq ⟨k, hk'⟩) (1 : Fin 2) (Or.inl ?_)).trans ?_
      · show 1024 * j.val + q.val < 1024 * k
        have := q.isLt; omega
      · rw [ih, if_pos hlt]
    · -- the tile this trip stores
      obtain rfl : j = ⟨k, hk'⟩ := Fin.ext heq
      rw [if_pos (Nat.lt_succ_self k)]
      refine (View.read_writes_cons_unit_of_mem arg6.view G6 (k0_off2_inb ⟨k, hk'⟩) _ _ (ix2 r (col ⟨k, hk'⟩ q)) (ix2 r q)
        (k0_off2_eq ⟨k, hk'⟩) ?_).trans ?_
      · intro a
        match a with
        | ⟨0, _⟩ => show r.val = 0 + r.val; omega
        | ⟨1, _⟩ => rfl
      · congr 1
        funext x
        rw [View.readAt_eq_ld]
        have he : (Rect.unit (s := S1x32768) (k0_off2 ⟨k, hk'⟩) S1x1024.size (k0_off2_inb ⟨k, hk'⟩)).emb x
            = ix2 (x 0) (col ⟨k, hk'⟩ (x 1)) := by
          funext a
          apply Fin.ext
          have h0 : k0_off2 ⟨k, hk'⟩ 0 = 0 := congrFun (k0_off2_eq ⟨k, hk'⟩) 0
          have h1 : k0_off2 ⟨k, hk'⟩ 1 = 1024 * k := congrFun (k0_off2_eq ⟨k, hk'⟩) 1
          match a with
          | ⟨0, _⟩ =>
            show k0_off2 ⟨k, hk'⟩ 0 + 1 * (x 0).val = (x 0).val
            omega
          | ⟨1, _⟩ =>
            show k0_off2 ⟨k, hk'⟩ 1 + 1 * (x 1).val = 1024 * k + (x 1).val
            omega
        show arg6.view.read (Elt F) _ ((Rect.unit (s := S1x32768) (k0_off2 ⟨k, hk'⟩) S1x1024.size (k0_off2_inb ⟨k, hk'⟩)).emb x) = _
        rw [he]
        exact (ih (x 0) ⟨k, hk'⟩ (x 1)).trans (if_neg (Nat.lt_irrefl k))
    · -- a later tile: untouched so far
      rw [if_neg (by omega)]
      refine (View.read_writes_cons_unit_of_not_mem arg6.view G6 (k0_off2_inb ⟨k, hk'⟩) _ _ (ix2 r (col j q))
        (k0_off2_eq ⟨k, hk'⟩) (1 : Fin 2) (Or.inr ?_)).trans ?_
      · show 1024 * k + 1024 ≤ 1024 * j.val + q.val
        omega
      · rw [ih, if_neg (by omega)]

end Cert.KernelIdeal.LoopVal

end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.Payloads.lean ====
/-
  The kernel body's arithmetic read at one index, at the ideal values (floats are extended reals).
  Each payload term of the scatter kernel's skeleton is read at an index given by coordinates:
  the two zero fills, the one-hot matrix product of one trip of the inner loop, the two accumulator
  updates that add rows of that product, and the final normalisation by the count clamped below by one.

  The one-hot matrix of trip `t` has, at row `j` and column `k`, the value one when the voxel number of
  point `k` equals `t * 1024 + j` and zero otherwise; its product with the feature block, contracted over the
  points, therefore sums the features of the points that fall into voxel `t * 1024 + j`.
-/
import proofs.«151853_j89756226552188_2_alg».proof.Proof.Gen.KernelIdeal.Skeleton
import proofs.«151853_j89756226552188_2_alg».proof.Proof.LibDotRowsT
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.KernelIdeal.Pay

open Idealize.ShloMosaic Idealize.ShloMosaic.ValueIdx Cert.KernelIdeal Cert.KernelIdeal.Gen

/-! ## The zero fills -/

/-- The first accumulator's fill is the zero splat: every element is the extended real zero. -/
theorem pay1_apply (i : S64x32768.Idx) : k0_pay1 (F := Ideal) i = 0 := by
  show Ideal.ofBits .f32 0x00000000#32 = 0
  exact Ideal.ofBits_zero_f32

/-- The second accumulator's fill is the zero splat too. -/
theorem pay2_apply (i : S1x32768.Idx) : k0_pay2 (F := Ideal) i = 0 := by
  show Ideal.ofBits .f32 0x00000000#32 = 0
  exact Ideal.ofBits_zero_f32

/-! ## The normalisation -/

/-- The stored block at `(0, f, v)` is the feature sum at `(f, v)` divided by the count at `v` clamped below by
    one. -/
theorem pay6_apply (v11 : Vec Ideal S64x32768 .f32) (v12 : Vec Ideal S1x32768 .f32) (f : Fin 64) (v : Fin 32768) :
    k0_pay6 (F := Ideal) v11 v12 (ix3 0 f v) = Ideal.div (v11 (ix2 f v)) (max (v12 (ix2 0 v)) 1) := by
  unfold k0_pay6
  refine (shapeCast_ab_1ab_apply _ _ 0 f v).trans ?_
  rw [divf_apply]
  congr 1
  refine (broadcastTo_1b_ab_apply _ _ f v).trans ?_
  rw [maximumf_apply, broadcast_apply]
  congr 1
  exact Ideal.ofBits_one_f32

/-! ## The dimension numbers of the product: [65, 4096] · [1024, 4096] → [65, 1024], both contracted on axis 1 -/

/-- The product's dimension numbers. -/
abbrev dd : DotDims S65x4096 S1024x4096 S65x1024 := dot_S65x4096_S1024x4096_S65x1024_1_1_0_0_n_n

/-- One axis is contracted, -/
theorem dd_rank : dd.contr.rank = 1 := rfl
/-- of extent 4096. -/
theorem dd_size : dd.contr.size ⟨0, by rw [dd_rank]; omega⟩ = 4096 := rfl
/-- The left operand is read at row `j 0` … -/
theorem dd_lhs0 : ∀ j k, (dd.lhsIdx j k 0).val = (j 0).val := fun _ _ => rfl
/-- … and at the contraction position on its axis 1; -/
theorem dd_lhs1 : ∀ j k, (dd.lhsIdx j k 1).val = (k ⟨0, by rw [dd_rank]; omega⟩).val := fun _ _ => rfl
/-- the right operand at row `j 1` … -/
theorem dd_rhs0 : ∀ j k, (dd.rhsIdx j k 0).val = (j 1).val := fun _ _ => rfl
/-- … and at the contraction position on its axis 1. -/
theorem dd_rhs1 : ∀ j k, (dd.rhsIdx j k 1).val = (k ⟨0, by rw [dd_rank]; omega⟩).val := fun _ _ => rfl

/-! ## The one-hot matrix at an entry -/

/-- An `[a, 1]` column broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The voxel number a row of the one-hot matrix stands for: the row `j` plus the trip's base `t * 1024`, as 32-bit
    words, is the word of `t * 1024 + j` (words add and multiply as the naturals do, modulo `2 ^ 32`). -/
theorem word_eq (t j : Nat) :
    IntOp.addi (BitVec.ofNat 32 j) (Scalar.muli (Scf.iv 0#32 1#32 t) 1024#32) = BitVec.ofNat 32 (t * 1024 + j) := by
  unfold IntOp.addi Scalar.muli IntOp.muli Scf.iv
  rw [BitVec.ofNat_add, BitVec.ofNat_mul, BitVec.zero_add, BitVec.mul_one, BitVec.add_comm]

/-- The comparison bit of two words, widened to 32 bits and converted to a float, is one when the words are equal
    and zero otherwise. -/
theorem onehot_word (a b : BitVec 32) :
    (FloatOps.sitofp (F := Ideal) .f32 ((IntOp.cmpi .eq a b).setWidth 32) : EReal) = if a = b then (1 : EReal) else 0 := by
  show ((((IntOp.cmpi .eq a b).setWidth 32).toInt : ℝ) : EReal) = _
  by_cases h : a = b
  · rw [if_pos h]
    have e : (IntOp.cmpi .eq a b).setWidth 32 = 1#32 := by
      unfold IntOp.cmpi
      rw [show (a == b) = true from beq_iff_eq.mpr h]; rfl
    rw [e]
    have e2 : (1#32 : BitVec 32).toInt = 1 := by decide
    rw [e2]; norm_num
  · rw [if_neg h]
    have e : (IntOp.cmpi .eq a b).setWidth 32 = 0#32 := by
      unfold IntOp.cmpi
      rw [show (a == b) = false from beq_eq_false_iff_ne.mpr h]; rfl
    rw [e]
    have e2 : (0#32 : BitVec 32).toInt = 0 := by decide
    rw [e2]; norm_num

/-! ## The one-hot product of a trip -/

/-- Trip `t`'s product at `(r, j)`: the sum over the points `k` of feature row `r` at `k`, counted when point `k`'s
    voxel number is `t * 1024 + j`. -/
theorem pay3_apply (x0 : Vec Ideal S1x1x4096 .i32) (x1 : Vec Ideal S1x65x4096 .bf16) (t : Fin k0_t1_loop.trips)
    (r : Fin 65) (j : Fin 1024) :
    k0_pay3 (F := Ideal) x0 x1 t (ix2 r j)
      = ∑ k : Fin 4096, x1 (ix3 0 r k)
          * (if x0 (ix3 0 0 k) = BitVec.ofNat 32 (t.val * 1024 + j.val) then (1 : EReal) else 0) := by
  unfold k0_pay3
  refine (matmul_zero_rowsT dd none dd_rank dd_size dd_lhs0 dd_lhs1 dd_rhs0 dd_rhs1 _ _ r j).trans ?_
  refine Finset.sum_congr rfl fun k _ => ?_
  congr 1
  · exact shapeCast_1ab_ab_apply _ _ r k
  · rw [truncf_apply, sitofp_apply, extui_apply]
    refine (onehot_word _ _).trans ?_
    have hA : broadcastTo S1024x4096 (shapeCast S1x4096 x0 shapeCasts_S1x1x4096_S1x4096) broadcasts_S1x4096_S1024x4096
        (ix2 j k) = x0 (ix3 0 0 k) :=
      (broadcastTo_1b_ab_apply _ _ j k).trans (shapeCast_1ab_ab_apply _ _ 0 k)
    have hB : broadcastTo S1024x4096
          (addi (iota Kind.tc S1024x1 32 [0] iota_S1024x1_d0_w32)
            (broadcast S1024x1 (Scalar.muli (Scf.iv 0#32 1#32 ↑t) 1024#32)))
          broadcasts_S1024x1_S1024x4096 (ix2 j k) = BitVec.ofNat 32 (t.val * 1024 + j.val) := by
      refine (broadcastTo_a1_ab_apply _ _ j k).trans ?_
      show IntOp.addi (iota Kind.tc S1024x1 32 [0] iota_S1024x1_d0_w32 (ix2 j 0))
        (Scalar.muli (Scf.iv 0#32 1#32 ↑t) 1024#32) = _
      rw [iota_single_apply]
      exact word_eq t.val j.val
    rw [hA, hB]

/-! ## The accumulator updates -/

/-- The feature accumulator's update at `(r, j)`: what it held plus row `r` (of the first 64) of the trip's product. -/
theorem pay4_apply (x0 : Vec Ideal S1x1x4096 .i32) (x1 : Vec Ideal S1x65x4096 .bf16) (t : Fin k0_t1_loop.trips)
    (v24 : Vec Ideal S64x1024 .f32) (r : Fin 64) (j : Fin 1024) :
    k0_pay4 (F := Ideal) x0 x1 t v24 (ix2 r j)
      = v24 (ix2 r j) + ∑ k : Fin 4096, x1 (ix3 0 (Fin.castSucc r) k)
          * (if x0 (ix3 0 0 k) = BitVec.ofNat 32 (t.val * 1024 + j.val) then (1 : EReal) else 0) := by
  unfold k0_pay4
  rw [shapeCast_self, addf_apply]
  congr 1
  refine (slice2_axis0_apply 0 _ _ r j (Fin.castSucc r) (Nat.zero_add _).symm).trans ?_
  exact pay3_apply x0 x1 t (Fin.castSucc r) j

/-- The count accumulator's update at `(0, j)`: what it held plus the last row, row 64, of the trip's product. -/
theorem pay5_apply (x0 : Vec Ideal S1x1x4096 .i32) (x1 : Vec Ideal S1x65x4096 .bf16) (t : Fin k0_t1_loop.trips)
    (v32 : Vec Ideal S1x1024 .f32) (j : Fin 1024) :
    k0_pay5 (F := Ideal) x0 x1 t v32 (ix2 0 j)
      = v32 (ix2 0 j) + ∑ k : Fin 4096, x1 (ix3 0 (64 : Fin 65) k)
          * (if x0 (ix3 0 0 k) = BitVec.ofNat 32 (t.val * 1024 + j.val) then (1 : EReal) else 0) := by
  unfold k0_pay5
  rw [shapeCast_self, addf_apply]
  congr 1
  refine (slice2_axis0_apply 64 _ _ (0 : Fin 1) j (64 : Fin 65) rfl).trans ?_
  exact pay3_apply x0 x1 t (64 : Fin 65) j

end Cert.KernelIdeal.Pay

end
-- ==== Proof.PieceInc.lean ====
/-
  One grid point's contribution to the accumulators, and the accumulators after the body's loop.

  At a grid point the body holds a block of 4096 points: their voxel numbers `x0` and a 65-row matrix `x1`
  (64 feature rows and a row of ones). For a voxel `v`, row `r` of the accumulators gains
  `inc x0 x1 r v = ∑ₖ x1(r, k) · [x0(k) = v]`: the loop's trip `j` adds exactly this to the columns of tile `j`,
  and the 32 tiles partition the 32768 voxels, so after the loop every entry has gained its own contribution once.
-/
import proofs.«151853_j89756226552188_2_alg».proof.Proof.Gen.KernelIdeal.Frame
import proofs.«151853_j89756226552188_2_alg».proof.Proof.LoopVal
import proofs.«151853_j89756226552188_2_alg».proof.Proof.Payloads
import Idealize.ShloMosaic.Lib.Pipeline.Value
import Idealize.ShloMosaic.Lib.WritesUnit
import Idealize.ShloMosaic.Lib.ValueIdx

set_option maxRecDepth 16384

noncomputable section

open scoped BigOperators

namespace Cert.KernelIdeal.Pieces

open Idealize.ShloMosaic Idealize.ShloMosaic.TcCoe Idealize.SL.Sem Idealize.ShloMosaic.ValueIdx
open Cert.KernelIdeal Cert.KernelIdeal.Gen Cert.KernelIdeal.LoopVal

theorem trips_eq : k0_t1_loop.trips = 32 := by decide

/-- One grid point's contribution to row `r` of the accumulators at voxel `v`: the sum, over the 4096 points of
    the block, of the row's entry at the point times the indicator that the point's voxel number is `v`. -/
def inc (x0 : Vec Ideal S1x1x4096 .i32) (x1 : Vec Ideal S1x65x4096 .bf16) (r : Fin 65) (v : Fin 32768) : EReal :=
  ∑ k : Fin 4096, x1 (ix3 0 r k) * (if x0 (ix3 0 0 k) = BitVec.ofNat 32 v.val then (1 : EReal) else 0)

theorem inc_col (x0 : Vec Ideal S1x1x4096 .i32) (x1 : Vec Ideal S1x65x4096 .bf16) (r : Fin 65)
    (j : Fin k0_t1_loop.trips) (q : Fin 1024) :
    inc x0 x1 r (col j q)
      = ∑ k : Fin 4096, x1 (ix3 0 r k) * (if x0 (ix3 0 0 k) = BitVec.ofNat 32 (j.val * 1024 + q.val) then (1 : EReal) else 0) := by
  unfold inc
  show (∑ k : Fin 4096, x1 (ix3 0 r k) * (if x0 (ix3 0 0 k) = BitVec.ofNat 32 (1024 * j.val + q.val) then (1 : EReal) else 0)) = _
  rw [Nat.mul_comm 1024 j.val]

/-- Every voxel number below 32768 is position `q` of a tile `j`. -/
theorem exists_col (v : Fin 32768) : ∃ (j : Fin k0_t1_loop.trips) (q : Fin 1024), v = col j q :=
  ⟨⟨v.val / 1024, by rw [trips_eq]; have := v.isLt; omega⟩, ⟨v.val % 1024, Nat.mod_lt _ (by omega)⟩,
    Fin.ext (by show v.val = 1024 * (v.val / 1024) + v.val % 1024; omega)⟩

variable (𝒱 : Variants) (bd : Option 𝒱.V)

/-- The sums accumulator after the loop's 32 trips: what it held at loop entry plus the point's contribution. -/
theorem loop5 (c : Dev nD) (i : grid0.Coords) (arg2 : Memref sig .tc .vmem S1x1x4096 .i32) (harg2 : arg2.IsWhole) (arg3 : Memref sig .tc .vmem S1x65x4096 .bf16) (harg3 : arg3.IsWhole) (arg4 : Memref sig .tc .vmem S1x64x32768 .f32) (harg4 : arg4.IsWhole) (arg5 : Memref sig .tc .vmem S64x32768 .f32) (harg5 : arg5.IsWhole) (arg6 : Memref sig .tc .vmem S1x32768 .f32) (harg6 : arg6.IsWhole) (v3 : Vec Ideal S1x1x4096 .i32) (v5 : Vec Ideal S1x65x4096 .bf16)
    (G5 : BufTy.Contents (Elt Ideal) arg5.view.ty) (G6 : BufTy.Contents (Elt Ideal) arg6.view.ty) (f : Fin 64) (v : Fin 32768) :
    arg5.view.read (Elt Ideal) (arg5.view.writes (Elt Ideal) G5
        (pb_k0_t1 (F := Ideal) 𝒱 c bd i arg2 harg2 arg3 harg3 arg4 harg4 arg5 harg5 arg6 harg6 v3 v5 G5 G6 k0_t1_loop.trips).1) (ix2 f v)
      = arg5.view.read (Elt Ideal) G5 (ix2 f v) + inc v3 v5 (Fin.castSucc f) v := by
  obtain ⟨j, q, rfl⟩ := exists_col v
  rw [read_pb5 𝒱 c bd i arg2 harg2 arg3 harg3 arg4 harg4 arg5 harg5 arg6 harg6 v3 v5 G5 G6 k0_t1_loop.trips (Nat.le_refl _) f j q,
    if_pos j.isLt, Pay.pay4_apply, inc_col]
  rfl

/-- The counts accumulator after the loop's 32 trips. -/
theorem loop6 (c : Dev nD) (i : grid0.Coords) (arg2 : Memref sig .tc .vmem S1x1x4096 .i32) (harg2 : arg2.IsWhole) (arg3 : Memref sig .tc .vmem S1x65x4096 .bf16) (harg3 : arg3.IsWhole) (arg4 : Memref sig .tc .vmem S1x64x32768 .f32) (harg4 : arg4.IsWhole) (arg5 : Memref sig .tc .vmem S64x32768 .f32) (harg5 : arg5.IsWhole) (arg6 : Memref sig .tc .vmem S1x32768 .f32) (harg6 : arg6.IsWhole) (v3 : Vec Ideal S1x1x4096 .i32) (v5 : Vec Ideal S1x65x4096 .bf16)
    (G5 : BufTy.Contents (Elt Ideal) arg5.view.ty) (G6 : BufTy.Contents (Elt Ideal) arg6.view.ty) (v : Fin 32768) :
    arg6.view.read (Elt Ideal) (arg6.view.writes (Elt Ideal) G6
        (pb_k0_t1 (F := Ideal) 𝒱 c bd i arg2 harg2 arg3 harg3 arg4 harg4 arg5 harg5 arg6 harg6 v3 v5 G5 G6 k0_t1_loop.trips).2) (ix2 0 v)
      = arg6.view.read (Elt Ideal) G6 (ix2 0 v) + inc v3 v5 (64 : Fin 65) v := by
  obtain ⟨j, q, rfl⟩ := exists_col v
  rw [read_pb6 𝒱 c bd i arg2 harg2 arg3 harg3 arg4 harg4 arg5 harg5 arg6 harg6 v3 v5 G5 G6 k0_t1_loop.trips (Nat.le_refl _) 0 j q,
    if_pos j.isLt, Pay.pay5_apply, inc_col]
  rfl

theorem hz3 : (![0, 0, 0] : Fin 3 → ℕ) = fun _ => 0 := funext fun a => by fin_cases a <;> rfl
theorem hz2 : (![0, 0] : Fin 2 → ℕ) = fun _ => 0 := funext fun a => by fin_cases a <;> rfl

end Cert.KernelIdeal.Pieces

end
-- ==== Proof.PiecesA.lean ====
/-
  What the first grid point of a batch element leaves in the two accumulators: they are zeroed first, so each entry
  is the point's contribution alone.
-/
import proofs.«151853_j89756226552188_2_alg».proof.Proof.PieceInc

set_option maxRecDepth 16384

noncomputable section

open scoped BigOperators

namespace Cert.KernelIdeal.Pieces

open Idealize.ShloMosaic Idealize.ShloMosaic.TcCoe Idealize.SL.Sem Idealize.ShloMosaic.ValueIdx
open Cert.KernelIdeal Cert.KernelIdeal.Gen Cert.KernelIdeal.LoopVal

/-- Case A: the sums accumulator is the point's contribution. -/
theorem sA0 (c : Dev nD) (i : grid0.Coords) (arg2 : Memref sig .tc .vmem S1x1x4096 .i32) (harg2 : arg2.IsWhole) (arg3 : Memref sig .tc .vmem S1x65x4096 .bf16) (harg3 : arg3.IsWhole) (arg4 : Memref sig .tc .vmem S1x64x32768 .f32) (harg4 : arg4.IsWhole) (arg5 : Memref sig .tc .vmem S64x32768 .f32) (harg5 : arg5.IsWhole) (arg6 : Memref sig .tc .vmem S1x32768 .f32) (harg6 : arg6.IsWhole) (hc0 : cond0_0 i) (hc1 : ¬cond0_1 i)
    (x0 : Vec Ideal S1x1x4096 .i32) (x1 : Vec Ideal S1x65x4096 .bf16) (f : Fin 64) (v : Fin 32768) :
    sout0_A_0 (F := Ideal) c i arg2 harg2 arg3 harg3 arg4 harg4 arg5 harg5 arg6 harg6 hc0 hc1 x0 x1 (ix2 f v) = 0 + inc x0 x1 (Fin.castSucc f) v := by
  unfold sout0_A_0
  rw [View.read_writes_of_cover VS0_0 VS0_0.junk arg5.view arg5.view.junk _ (scover0_A_0 c i arg2 harg2 arg3 harg3 arg4 harg4 arg5 harg5 arg6 harg6 hc0 hc1 x0 x1)]
  unfold kernelRun0_A
  dsimp only
  rw [View.writes_append]
  refine (loop5 (𝒱 := Variants.none) (bd := none) c i arg2 harg2 arg3 harg3 arg4 harg4 arg5 harg5 arg6 harg6 _ _ _ _ f v).trans ?_
  unfold kernelRun0_A.sl.HS0_1
  congr 1
  · refine (View.read_writes_cons_unit_of_mem arg5.view arg5.view.junk _ _ [] (ix2 f v) (ix2 f v) rfl ?_).trans (Pay.pay1_apply _)
    intro a
    match a with
    | ⟨0, _⟩ => show f.val = 0 + f.val; omega
    | ⟨1, _⟩ => show v.val = 0 + v.val; omega
  · simp only [View.readAt_eq_ld, harg2.read_unread, harg3.read_unread, View.ld_unit_zero (S := S1x1x4096) hz3, View.ld_unit_zero (S := S1x65x4096) hz3]

/-- Case A: the counts accumulator is the point's contribution of the row of ones. -/
theorem sA1 (c : Dev nD) (i : grid0.Coords) (arg2 : Memref sig .tc .vmem S1x1x4096 .i32) (harg2 : arg2.IsWhole) (arg3 : Memref sig .tc .vmem S1x65x4096 .bf16) (harg3 : arg3.IsWhole) (arg4 : Memref sig .tc .vmem S1x64x32768 .f32) (harg4 : arg4.IsWhole) (arg5 : Memref sig .tc .vmem S64x32768 .f32) (harg5 : arg5.IsWhole) (arg6 : Memref sig .tc .vmem S1x32768 .f32) (harg6 : arg6.IsWhole) (hc0 : cond0_0 i) (hc1 : ¬cond0_1 i)
    (x0 : Vec Ideal S1x1x4096 .i32) (x1 : Vec Ideal S1x65x4096 .bf16) (v : Fin 32768) :
    sout0_A_1 (F := Ideal) c i arg2 harg2 arg3 harg3 arg4 harg4 arg5 harg5 arg6 harg6 hc0 hc1 x0 x1 (ix2 0 v) = 0 + inc x0 x1 (64 : Fin 65) v := by
  unfold sout0_A_1
  rw [View.read_writes_of_cover VS0_1 VS0_1.junk arg6.view arg6.view.junk _ (scover0_A_1 c i arg2 harg2 arg3 harg3 arg4 harg4 arg5 harg5 arg6 harg6 hc0 hc1 x0 x1)]
  unfold kernelRun0_A
  dsimp only
  rw [View.writes_append]
  refine (loop6 (𝒱 := Variants.none) (bd := none) c i arg2 harg2 arg3 harg3 arg4 harg4 arg5 harg5 arg6 harg6 _ _ _ _ v).trans ?_
  unfold kernelRun0_A.sl.HS1_1
  congr 1
  · refine (View.read_writes_cons_unit_of_mem arg6.view arg6.view.junk _ _ [] (ix2 0 v) (ix2 0 v) rfl ?_).trans (Pay.pay2_apply _)
    intro a
    match a with
    | ⟨0, _⟩ => rfl
    | ⟨1, _⟩ => show v.val = 0 + v.val; omega
  · simp only [View.readAt_eq_ld, harg2.read_unread, harg3.read_unread, View.ld_unit_zero (S := S1x1x4096) hz3, View.ld_unit_zero (S := S1x65x4096) hz3]

end Cert.KernelIdeal.Pieces

end
-- ==== Proof.PiecesB.lean ====
/-
  What an inner grid point (neither the first nor the last tile of points of a batch element) leaves in the two
  accumulators: each entry gains the point's contribution.
-/
import proofs.«151853_j89756226552188_2_alg».proof.Proof.PieceInc

set_option maxRecDepth 16384

noncomputable section

open scoped BigOperators

namespace Cert.KernelIdeal.Pieces

open Idealize.ShloMosaic Idealize.ShloMosaic.TcCoe Idealize.SL.Sem Idealize.ShloMosaic.ValueIdx
open Cert.KernelIdeal Cert.KernelIdeal.Gen Cert.KernelIdeal.LoopVal

/-- Case B: the sums accumulator gains the point's contribution. -/
theorem sB0 (c : Dev nD) (i : grid0.Coords) (arg2 : Memref sig .tc .vmem S1x1x4096 .i32) (harg2 : arg2.IsWhole) (arg3 : Memref sig .tc .vmem S1x65x4096 .bf16) (harg3 : arg3.IsWhole) (arg4 : Memref sig .tc .vmem S1x64x32768 .f32) (harg4 : arg4.IsWhole) (arg5 : Memref sig .tc .vmem S64x32768 .f32) (harg5 : arg5.IsWhole) (arg6 : Memref sig .tc .vmem S1x32768 .f32) (harg6 : arg6.IsWhole) (hc0 : ¬cond0_0 i) (hc1 : ¬cond0_1 i)
    (x0 : Vec Ideal S1x1x4096 .i32) (x1 : Vec Ideal S1x65x4096 .bf16) (xs0 : Vec Ideal S64x32768 .f32) (xs1 : Vec Ideal S1x32768 .f32) (f : Fin 64) (v : Fin 32768) :
    sout0_B_0 (F := Ideal) c i arg2 harg2 arg3 harg3 arg4 harg4 arg5 harg5 arg6 harg6 hc0 hc1 x0 x1 xs0 xs1 (ix2 f v) = xs0 (ix2 f v) + inc x0 x1 (Fin.castSucc f) v := by
  unfold sout0_B_0
  rw [View.read_writes_of_cover VS0_0 VS0_0.junk arg5.view (harg5.unread xs0) _ (scover0_B_0 c i arg2 harg2 arg3 harg3 arg4 harg4 arg5 harg5 arg6 harg6 hc0 hc1 x0 x1 xs0 xs1)]
  unfold kernelRun0_B
  dsimp only
  refine (loop5 (𝒱 := Variants.none) (bd := none) c i arg2 harg2 arg3 harg3 arg4 harg4 arg5 harg5 arg6 harg6 _ _ (harg5.unread xs0) (harg6.unread xs1) f v).trans ?_
  rw [harg5.read_unread]
  simp only [View.readAt_eq_ld, harg2.read_unread, harg3.read_unread, View.ld_unit_zero (S := S1x1x4096) hz3, View.ld_unit_zero (S := S1x65x4096) hz3]

/-- Case B: the counts accumulator gains the point's contribution of the row of ones. -/
theorem sB1 (c : Dev nD) (i : grid0.Coords) (arg2 : Memref sig .tc .vmem S1x1x4096 .i32) (harg2 : arg2.IsWhole) (arg3 : Memref sig .tc .vmem S1x65x4096 .bf16) (harg3 : arg3.IsWhole) (arg4 : Memref sig .tc .vmem S1x64x32768 .f32) (harg4 : arg4.IsWhole) (arg5 : Memref sig .tc .vmem S64x32768 .f32) (harg5 : arg5.IsWhole) (arg6 : Memref sig .tc .vmem S1x32768 .f32) (harg6 : arg6.IsWhole) (hc0 : ¬cond0_0 i) (hc1 : ¬cond0_1 i)
    (x0 : Vec Ideal S1x1x4096 .i32) (x1 : Vec Ideal S1x65x4096 .bf16) (xs0 : Vec Ideal S64x32768 .f32) (xs1 : Vec Ideal S1x32768 .f32) (v : Fin 32768) :
    sout0_B_1 (F := Ideal) c i arg2 harg2 arg3 harg3 arg4 harg4 arg5 harg5 arg6 harg6 hc0 hc1 x0 x1 xs0 xs1 (ix2 0 v) = xs1 (ix2 0 v) + inc x0 x1 (64 : Fin 65) v := by
  unfold sout0_B_1
  rw [View.read_writes_of_cover VS0_1 VS0_1.junk arg6.view (harg6.unread xs1) _ (scover0_B_1 c i arg2 harg2 arg3 harg3 arg4 harg4 arg5 harg5 arg6 harg6 hc0 hc1 x0 x1 xs0 xs1)]
  unfold kernelRun0_B
  dsimp only
  refine (loop6 (𝒱 := Variants.none) (bd := none) c i arg2 harg2 arg3 harg3 arg4 harg4 arg5 harg5 arg6 harg6 _ _ (harg5.unread xs0) (harg6.unread xs1) v).trans ?_
  rw [harg6.read_unread]
  simp only [View.readAt_eq_ld, harg2.read_unread, harg3.read_unread, View.ld_unit_zero (S := S1x1x4096) hz3, View.ld_unit_zero (S := S1x65x4096) hz3]

end Cert.KernelIdeal.Pieces

end
-- ==== Proof.PiecesC.lean ====
/-
  What the last grid point of a batch element leaves: the accumulators gain the point's contribution like at any other
  point, and the output block is the quotient of the finished sums by the finished counts, the counts raised to at least 1.
-/
import proofs.«151853_j89756226552188_2_alg».proof.Proof.PieceInc

set_option maxRecDepth 16384

noncomputable section

open scoped BigOperators

namespace Cert.KernelIdeal.Pieces

open Idealize.ShloMosaic Idealize.ShloMosaic.TcCoe Idealize.SL.Sem Idealize.ShloMosaic.ValueIdx
open Cert.KernelIdeal Cert.KernelIdeal.Gen Cert.KernelIdeal.LoopVal

/-- Case C: the sums accumulator gains the point's contribution. -/
theorem sC0 (c : Dev nD) (i : grid0.Coords) (arg2 : Memref sig .tc .vmem S1x1x4096 .i32) (harg2 : arg2.IsWhole) (arg3 : Memref sig .tc .vmem S1x65x4096 .bf16) (harg3 : arg3.IsWhole) (arg4 : Memref sig .tc .vmem S1x64x32768 .f32) (harg4 : arg4.IsWhole) (arg5 : Memref sig .tc .vmem S64x32768 .f32) (harg5 : arg5.IsWhole) (arg6 : Memref sig .tc .vmem S1x32768 .f32) (harg6 : arg6.IsWhole) (hc0 : ¬cond0_0 i) (hc1 : cond0_1 i)
    (x0 : Vec Ideal S1x1x4096 .i32) (x1 : Vec Ideal S1x65x4096 .bf16) (xs0 : Vec Ideal S64x32768 .f32) (xs1 : Vec Ideal S1x32768 .f32) (f : Fin 64) (v : Fin 32768) :
    sout0_C_0 (F := Ideal) c i arg2 harg2 arg3 harg3 arg4 harg4 arg5 harg5 arg6 harg6 hc0 hc1 x0 x1 xs0 xs1 (ix2 f v) = xs0 (ix2 f v) + inc x0 x1 (Fin.castSucc f) v := by
  unfold sout0_C_0
  rw [View.read_writes_of_cover VS0_0 VS0_0.junk arg5.view (harg5.unread xs0) _ (scover0_C_0 c i arg2 harg2 arg3 harg3 arg4 harg4 arg5 harg5 arg6 harg6 hc0 hc1 x0 x1 xs0 xs1)]
  unfold kernelRun0_C
  dsimp only
  refine (loop5 (𝒱 := Variants.none) (bd := none) c i arg2 harg2 arg3 harg3 arg4 harg4 arg5 harg5 arg6 harg6 _ _ (harg5.unread xs0) (harg6.unread xs1) f v).trans ?_
  rw [harg5.read_unread]
  simp only [View.readAt_eq_ld, harg2.read_unread, harg3.read_unread, View.ld_unit_zero (S := S1x1x4096) hz3, View.ld_unit_zero (S := S1x65x4096) hz3]

/-- Case C: the counts accumulator gains the point's contribution of the row of ones. -/
theorem sC1 (c : Dev nD) (i : grid0.Coords) (arg2 : Memref sig .tc .vmem S1x1x4096 .i32) (harg2 : arg2.IsWhole) (arg3 : Memref sig .tc .vmem S1x65x4096 .bf16) (harg3 : arg3.IsWhole) (arg4 : Memref sig .tc .vmem S1x64x32768 .f32) (harg4 : arg4.IsWhole) (arg5 : Memref sig .tc .vmem S64x32768 .f32) (harg5 : arg5.IsWhole) (arg6 : Memref sig .tc .vmem S1x32768 .f32) (harg6 : arg6.IsWhole) (hc0 : ¬cond0_0 i) (hc1 : cond0_1 i)
    (x0 : Vec Ideal S1x1x4096 .i32) (x1 : Vec Ideal S1x65x4096 .bf16) (xs0 : Vec Ideal S64x32768 .f32) (xs1 : Vec Ideal S1x32768 .f32) (v : Fin 32768) :
    sout0_C_1 (F := Ideal) c i arg2 harg2 arg3 harg3 arg4 harg4 arg5 harg5 arg6 harg6 hc0 hc1 x0 x1 xs0 xs1 (ix2 0 v) = xs1 (ix2 0 v) + inc x0 x1 (64 : Fin 65) v := by
  unfold sout0_C_1
  rw [View.read_writes_of_cover VS0_1 VS0_1.junk arg6.view (harg6.unread xs1) _ (scover0_C_1 c i arg2 harg2 arg3 harg3 arg4 harg4 arg5 harg5 arg6 harg6 hc0 hc1 x0 x1 xs0 xs1)]
  unfold kernelRun0_C
  dsimp only
  refine (loop6 (𝒱 := Variants.none) (bd := none) c i arg2 harg2 arg3 harg3 arg4 harg4 arg5 harg5 arg6 harg6 _ _ (harg5.unread xs0) (harg6.unread xs1) v).trans ?_
  rw [harg6.read_unread]
  simp only [View.readAt_eq_ld, harg2.read_unread, harg3.read_unread, View.ld_unit_zero (S := S1x1x4096) hz3, View.ld_unit_zero (S := S1x65x4096) hz3]

/-- Case C: the output block. -/
theorem oC2 (c : Dev nD) (i : grid0.Coords) (arg2 : Memref sig .tc .vmem S1x1x4096 .i32) (harg2 : arg2.IsWhole) (arg3 : Memref sig .tc .vmem S1x65x4096 .bf16) (harg3 : arg3.IsWhole) (arg4 : Memref sig .tc .vmem S1x64x32768 .f32) (harg4 : arg4.IsWhole) (arg5 : Memref sig .tc .vmem S64x32768 .f32) (harg5 : arg5.IsWhole) (arg6 : Memref sig .tc .vmem S1x32768 .f32) (harg6 : arg6.IsWhole) (hc0 : ¬cond0_0 i) (hc1 : cond0_1 i)
    (x0 : Vec Ideal S1x1x4096 .i32) (x1 : Vec Ideal S1x65x4096 .bf16) (xs0 : Vec Ideal S64x32768 .f32) (xs1 : Vec Ideal S1x32768 .f32) (f : Fin 64) (v : Fin 32768) :
    out0_C_2 (F := Ideal) c i arg2 harg2 arg3 harg3 arg4 harg4 arg5 harg5 arg6 harg6 hc0 hc1 x0 x1 xs0 xs1 (ix3 0 f v)
      = Ideal.div (xs0 (ix2 f v) + inc x0 x1 (Fin.castSucc f) v) (max (xs1 (ix2 0 v) + inc x0 x1 (64 : Fin 65) v) 1) := by
  unfold out0_C_2
  unfold kernelRun0_C
  dsimp only
  refine (View.read_writes_cons_unit_of_mem VO0_2 VO0_2.junk _ _ [] (ix3 0 f v) (ix3 0 f v) rfl ?_).trans ?_
  · intro a
    match a with
    | ⟨0, _⟩ => rfl
    | ⟨1, _⟩ => show f.val = 0 + f.val; omega
    | ⟨2, _⟩ => show v.val = 0 + v.val; omega
  rw [Pay.pay6_apply]
  unfold kernelRun0_C.sl.v11 kernelRun0_C.sl.v12
  congr 1
  · rw [View.readAt_eq_ld, View.ld_unit_zero (S := S64x32768) hz2]
    refine (loop5 (𝒱 := Variants.none) (bd := none) c i arg2 harg2 arg3 harg3 arg4 harg4 arg5 harg5 arg6 harg6 _ _ (harg5.unread xs0) (harg6.unread xs1) f v).trans ?_
    rw [harg5.read_unread]
    simp only [View.readAt_eq_ld, harg2.read_unread, harg3.read_unread, View.ld_unit_zero (S := S1x1x4096) hz3, View.ld_unit_zero (S := S1x65x4096) hz3]
  · congr 1
    rw [View.readAt_eq_ld, View.ld_unit_zero (S := S1x32768) hz2]
    refine (loop6 (𝒱 := Variants.none) (bd := none) c i arg2 harg2 arg3 harg3 arg4 harg4 arg5 harg5 arg6 harg6 _ _ (harg5.unread xs0) (harg6.unread xs1) v).trans ?_
    rw [harg6.read_unread]
    simp only [View.readAt_eq_ld, harg2.read_unread, harg3.read_unread, View.ld_unit_zero (S := S1x1x4096) hz3, View.ld_unit_zero (S := S1x65x4096) hz3]

end Cert.KernelIdeal.Pieces

end
-- ==== Proof.AccumSum.lean ====
/-
  A running sum that restarts at every index that is a multiple of 25. The accumulated value at an index `t` is the
  term at `t` when `t` is a multiple of 25, and otherwise the accumulated value at `t - 1` plus the term at `t`.
  At the last index of a block of 25, `25 * b + 24`, it is therefore the sum of the block's 25 terms.
-/
import Mathlib.Algebra.BigOperators.Fin

open scoped BigOperators

namespace Cert.AccumSum

/-- The running sum of the terms `pt`, restarted at every index that is a multiple of 25. -/
def accR {M : Type*} [AddCommMonoid M] (pt : ℕ → M) : ℕ → M
  | 0 => pt 0
  | t + 1 => if (t + 1) % 25 = 0 then pt (t + 1) else accR pt t + pt (t + 1)

/-- At a multiple of 25 the running sum restarts: it is the term there. -/
theorem accR_zero_mod {M : Type*} [AddCommMonoid M] (pt : ℕ → M) (t : ℕ) (h : t % 25 = 0) : accR pt t = pt t := by
  cases t with
  | zero => rfl
  | succ t => rw [accR, if_pos h]

/-- Elsewhere it is the running sum one index earlier plus the term there. -/
theorem accR_succ_of_ne {M : Type*} [AddCommMonoid M] (pt : ℕ → M) (t : ℕ) (h : t % 25 ≠ 0) :
    accR pt t = accR pt (t - 1) + pt t := by
  cases t with
  | zero => exact absurd (Nat.zero_mod 25) h
  | succ t => rw [accR, if_neg h, Nat.add_sub_cancel]

/-- Inside a block of 25 the running sum at offset `n` is the sum of the block's first `n + 1` terms. -/
theorem accR_block {M : Type*} [AddCommMonoid M] (pt : ℕ → M) (b : ℕ) :
    ∀ n : ℕ, n ≤ 24 → accR pt (25 * b + n) = ∑ i ∈ Finset.range (n + 1), pt (25 * b + i)
  | 0, _ => by
    rw [accR_zero_mod pt (25 * b + 0) (by omega), Finset.sum_range_one]
  | n + 1, hn => by
    rw [accR_succ_of_ne pt (25 * b + (n + 1)) (by omega), Finset.sum_range_succ _ (n + 1),
      show 25 * b + (n + 1) - 1 = 25 * b + n by omega, accR_block pt b n (by omega)]

/-- At the last index of a block the running sum is the sum of the block's 25 terms. -/
theorem accR_last {M : Type*} [AddCommMonoid M] (pt : ℕ → M) (b : ℕ) :
    accR pt (25 * b + 24) = ∑ n : Fin 25, pt (25 * b + n.val) := by
  rw [accR_block pt b 24 (Nat.le_refl _)]
  exact (Fin.sum_univ_eq_sum_range (fun i => pt (25 * b + i)) 25).symm

end Cert.AccumSum
-- ==== Proof.Accum.lean ====
/-
  The accumulation over grid points.

  The grid has 8 × 25 points; point `t = 25 b + n` handles tile `n` of the points of batch element `b`. The two
  accumulators are zeroed at `n = 0` and gain every point's contribution, so after point `t` they hold the running sum
  of the contributions of the points `25 b, …, t` (`accR`, restarted at every multiple of 25). At `n = 24` the body
  writes the quotient of the finished sums by the finished counts (raised to at least 1) into the output block.
-/
import proofs.«151853_j89756226552188_2_alg».proof.Proof.PiecesA
import proofs.«151853_j89756226552188_2_alg».proof.Proof.PiecesB
import proofs.«151853_j89756226552188_2_alg».proof.Proof.PiecesC
import proofs.«151853_j89756226552188_2_alg».proof.Proof.AccumSum

set_option maxRecDepth 16384

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen Cert.KernelIdeal.Pieces Cert.AccumSum

variable (m : (ℓ : Loc nD τ sig) → Buf (Elt Ideal) ℓ) (c : Dev nD)

/-- Grid point `p`'s contribution to row `r` of the accumulators at voxel `v`. -/
def pt (r : Fin 65) (v : Fin 32768) (p : ℕ) : EReal :=
  if h : p < cfg0.N then inc (iblk m c 0 ⟨p, h⟩) (iblk m c 1 ⟨p, h⟩) r v else 0

theorem pt_of_lt (r : Fin 65) (v : Fin 32768) (t : Fin cfg0.N) :
    pt m c r v t.val = inc (iblk m c 0 t) (iblk m c 1 t) r v := by
  unfold pt; rw [dif_pos t.isLt]

/-- After point `t` both accumulators hold the running sums. -/
def Inv (t : ℕ) (ht : t < cfg0.N) : Prop :=
  (∀ (f : Fin 64) (v : Fin 32768), (outsAt0 m c t ht).2.1 (ix2 f v) = accR (pt m c (Fin.castSucc f) v) t)
    ∧ (∀ v : Fin 32768, (outsAt0 m c t ht).2.2 (ix2 0 v) = accR (pt m c (64 : Fin 65) v) t)

theorem inv_A (t : Fin cfg0.N) (h0 : t.val % 25 = 0) : Inv m c t.val t.isLt := by
  have h1 : ¬t.val % 25 = 24 := by omega
  unfold Inv
  rw [outsAt0_A m c t h0 h1]
  dsimp only
  constructor
  · intro f v
    rw [accR_zero_mod _ _ h0, pt_of_lt]
    exact (sA0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t) f v).trans (zero_add _)
  · intro v
    rw [accR_zero_mod _ _ h0, pt_of_lt]
    exact (sA1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t) v).trans (zero_add _)

theorem pred_lt (t : Fin cfg0.N) : t.val - 1 < cfg0.N := Nat.lt_of_le_of_lt (Nat.sub_le _ _) t.isLt

theorem inv_BC (t : Fin cfg0.N) (h0 : ¬t.val % 25 = 0) (ih : Inv m c (t.val - 1) (pred_lt t)) : Inv m c t.val t.isLt := by
  unfold Inv
  by_cases h1 : t.val % 25 = 24
  · rw [outsAt0_C m c t h0 h1]
    dsimp only
    constructor
    · intro f v
      rw [accR_succ_of_ne _ _ h0, pt_of_lt]
      refine (sC0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
        (outsAt0 m c (t.val - 1) (pred_lt t)).2.1 (outsAt0 m c (t.val - 1) (pred_lt t)).2.2 f v).trans ?_
      rw [ih.1 f v]
    · intro v
      rw [accR_succ_of_ne _ _ h0, pt_of_lt]
      refine (sC1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
        (outsAt0 m c (t.val - 1) (pred_lt t)).2.1 (outsAt0 m c (t.val - 1) (pred_lt t)).2.2 v).trans ?_
      rw [ih.2 v]
  · rw [outsAt0_B m c t h0 h1]
    dsimp only
    constructor
    · intro f v
      rw [accR_succ_of_ne _ _ h0, pt_of_lt]
      refine (sB0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t)
        (outsAt0 m c (t.val - 1) (pred_lt t)).2.1 (outsAt0 m c (t.val - 1) (pred_lt t)).2.2 f v).trans ?_
      rw [ih.1 f v]
    · intro v
      rw [accR_succ_of_ne _ _ h0, pt_of_lt]
      refine (sB1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t)
        (outsAt0 m c (t.val - 1) (pred_lt t)).2.1 (outsAt0 m c (t.val - 1) (pred_lt t)).2.2 v).trans ?_
      rw [ih.2 v]

theorem inv_all : ∀ (t : ℕ) (ht : t < cfg0.N), Inv m c t ht := by
  intro t
  induction t with
  | zero => intro ht; exact inv_A m c ⟨0, ht⟩ rfl
  | succ n ih =>
    intro ht
    by_cases h0 : (n + 1) % 25 = 0
    · exact inv_A m c ⟨n + 1, ht⟩ h0
    · exact inv_BC m c ⟨n + 1, ht⟩ h0 (ih (Nat.lt_of_succ_lt ht))

/-- What the last point of a batch element writes into the output block. -/
theorem out_at_last (t : Fin cfg0.N) (h24 : t.val % 25 = 24) (f : Fin 64) (v : Fin 32768) :
    (outsAt0 m c t.val t.isLt).1 (ix3 0 f v)
      = Ideal.div (accR (pt m c (Fin.castSucc f) v) t.val) (max (accR (pt m c (64 : Fin 65) v) t.val) 1) := by
  have h0 : ¬t.val % 25 = 0 := by omega
  have ih := inv_all m c (t.val - 1) (pred_lt t)
  rw [outsAt0_C m c t h0 h24]
  dsimp only
  refine (oC2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h24) (iblk m c 0 t) (iblk m c 1 t)
    (outsAt0 m c (t.val - 1) (pred_lt t)).2.1 (outsAt0 m c (t.val - 1) (pred_lt t)).2.2 f v).trans ?_
  rw [ih.1 f v, ih.2 v, accR_succ_of_ne _ _ h0, accR_succ_of_ne _ _ h0, pt_of_lt, pt_of_lt]

end Cert.KernelIdeal.Accum

end
-- ==== Proof.BlockRead.lean ====
/-
  The two input windows' blocks read at an index.

  The region's grid is 8 by 25. At grid point `t` the window over the staged voxel numbers holds batch element
  `t / 25`, lanes `4096 (t % 25)` to `4096 (t % 25) + 4095`; the window over the staged features holds the same
  batch element and lanes, all 65 channels. Each block, read at a coordinate inside it, is the window's array as
  the region finds it, read at the corresponding coordinate of the array.
-/
import proofs.«151853_j89756226552188_2_alg».proof.Proof.Gen.KernelIdeal.Frame
import Idealize.ShloMosaic.Lib.ValueIdx

noncomputable section

namespace Cert.KernelIdeal.BlockRead

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ) (c : Dev nD)

/-! ## The grid and the index maps

The grid is 8 by 25: point `t` has coordinates `(t / 25, t % 25)`. Both input windows' index maps send it to the
block `(t / 25, 0, t % 25)`: batch element `t / 25`, the whole channel axis, lanes `4096 (t % 25)` onwards. -/

/-- The grid has 200 points. -/
theorem t_lt (t : Fin cfg0.N) : t.val < 200 := lt_of_lt_of_eq t.isLt N_0

/-- The batch element of grid point `t`. -/
def bt (t : Fin cfg0.N) : Fin 8 := ⟨t.val / 25, by have := t_lt t; omega⟩

/-- The first lane of grid point `t`'s block, plus `k`. -/
def lane (t : Fin cfg0.N) (k : Fin 4096) : Fin 102400 := ⟨t.val % 25 * 4096 + k.val, by have := k.isLt; omega⟩

/-- The printed index maps, decided over the grid. -/
theorem idx_facts : ∀ t : Fin cfg0.N,
    win0_0.index t (0 : Fin 3) = t.val / 25 ∧ win0_0.index t (1 : Fin 3) = 0 ∧ win0_0.index t (2 : Fin 3) = t.val % 25
    ∧ win0_1.index t (0 : Fin 3) = t.val / 25 ∧ win0_1.index t (1 : Fin 3) = 0 ∧ win0_1.index t (2 : Fin 3) = t.val % 25 :=
  (by decide +kernel : ∀ t : Fin grid0.N, _)

/-! ## The input windows' blocks read at an index

A window's block at grid point `t` is its array read on the block's rectangle: coordinate `y` inside the block
is the array's coordinate `index × extent + y` on each axis. -/

/-- Window 0's block (the staged voxel numbers, one batch element, 4096 lanes) at lane `k`: the array at batch
    element `t / 25` and lane `4096 (t % 25) + k`. -/
theorem iblk0_apply (t : Fin cfg0.N) (k : Fin 4096) :
    (iblk m c 0 t : S1x1x4096.Idx → BitVec 32) (ix3 0 0 k)
      = (V m c main_v35 : S8x1x102400.Idx → BitVec 32) (ix3 (bt t) 0 (lane t k)) := by
  obtain ⟨e0, e1, e2, -, -, -⟩ := idx_facts t
  show (V m c main_v35 : S8x1x102400.Idx → BitVec 32) (((cfg0.win 0).blk t).view.emb (ix3 0 0 k)) = _
  refine congrArg _ (funext fun a => Fin.ext ?_)
  match a with
  | ⟨0, _⟩ => show win0_0.index t (0 : Fin 3) * 1 + 1 * 0 = t.val / 25; omega
  | ⟨1, _⟩ => show win0_0.index t (1 : Fin 3) * 1 + 1 * 0 = 0; omega
  | ⟨2, _⟩ => show win0_0.index t (2 : Fin 3) * 4096 + 1 * k.val = t.val % 25 * 4096 + k.val; omega

/-- Window 1's block (the staged features, one batch element, all 65 channels, 4096 lanes) at channel `r` and
    lane `k`: the array at batch element `t / 25`, channel `r` and lane `4096 (t % 25) + k`. -/
theorem iblk1_apply (t : Fin cfg0.N) (r : Fin 65) (k : Fin 4096) :
    (iblk m c 1 t : S1x65x4096.Idx → Elt F .bf16) (ix3 0 r k)
      = (V m c main_v39 : S8x65x102400.Idx → Elt F .bf16) (ix3 (bt t) r (lane t k)) := by
  obtain ⟨-, -, -, e0, e1, e2⟩ := idx_facts t
  show (V m c main_v39 : S8x65x102400.Idx → Elt F .bf16) (((cfg0.win 1).blk t).view.emb (ix3 0 r k)) = _
  refine congrArg _ (funext fun a => Fin.ext ?_)
  match a with
  | ⟨0, _⟩ => show win0_1.index t (0 : Fin 3) * 1 + 1 * 0 = t.val / 25; omega
  | ⟨1, _⟩ => show win0_1.index t (1 : Fin 3) * 65 + 1 * r.val = r.val; omega
  | ⟨2, _⟩ => show win0_1.index t (2 : Fin 3) * 4096 + 1 * k.val = t.val % 25 * 4096 + k.val; omega

end Cert.KernelIdeal.BlockRead

end
-- ==== Proof.KernelSums.lean ====
/-
  The kernel's tiled sums are the specification's sums.

  The kernel walks 25 tiles of 4096 padded points. A padded point (index 100000 … 102399) carries the voxel word
  32768, which is the word of no voxel number below 32768, so its 0/1 indicator is 0 and its term vanishes whatever
  its feature. A true point contributes its feature times the indicator, which is the feature when the point lies in
  the voxel and 0 otherwise: the term of the specification's sum.
-/
import proofs.«151853_j89756226552188_2_alg».proof.Proof.Spec
import proofs.«151853_j89756226552188_2_alg».proof.Proof.VoxRange

open Idealize.ShloMosaic Idealize.ShloMosaic.ValueIdx
open scoped BigOperators

namespace Cert.KernelSums

/-- The padding word 32768 is not the word of a voxel number below 32768: both are below `2³²`, so the words differ
    because the numbers do. -/
theorem pad_ne (v : ℕ) (hv : v < 32768) : (32768#32 : BitVec 32) ≠ BitVec.ofNat 32 v := by
  intro h
  have h' := congrArg BitVec.toNat h
  rw [BitVec.toNat_ofNat, BitVec.toNat_ofNat] at h'
  omega

/-- The tiled sum of `FX · indicator`, when `FX` agrees with `g` on the true points and the voxel words are padded
    with 32768, is the sum over the true points of `g` where the point lies in voxel `v` and of 0 elsewhere. -/
theorem tiles_select (g : Fin 100000 → EReal) (idx : VoxelAvg.SVox.Idx → BitVec 32) (FX : ℕ → EReal)
    (IX : ℕ → BitVec 32) (b : Fin 8) (v : ℕ) (hv : v < 32768)
    (hIX : ∀ p, p < 102400 → IX p = if h : p < 100000 then idx (ix2 b ⟨p, h⟩) else 32768#32)
    (hFX : ∀ p (h : p < 100000), FX p = g ⟨p, h⟩) :
    ∑ n : Fin 25, ∑ k : Fin 4096,
        FX (n.val * 4096 + k.val) * (if IX (n.val * 4096 + k.val) = BitVec.ofNat 32 v then (1 : EReal) else 0)
      = ∑ n : Fin 100000, if idx (ix2 b n) = BitVec.ofNat 32 v then g n else 0 := by
  -- the padded points contribute nothing
  have key := Cert.PadBlocks.sum_tiles_pad
    (fun p => FX p * (if IX p = BitVec.ofNat 32 v then (1 : EReal) else 0)) (fun p h1 h2 => by
      have hp : IX p = 32768#32 := by rw [hIX p h2, dif_neg (by omega)]
      show FX p * (if IX p = BitVec.ofNat 32 v then (1 : EReal) else 0) = 0
      rw [hp, if_neg (pad_ne v hv), mul_zero])
  refine key.trans (Finset.sum_congr rfl fun n _ => ?_)
  -- a true point: its term is the feature or 0
  show FX n.val * (if IX n.val = BitVec.ofNat 32 v then (1 : EReal) else 0) = _
  have hI : IX n.val = idx (ix2 b n) := by
    rw [hIX n.val (by have := n.isLt; omega), dif_pos n.isLt]
  rw [hI, hFX n.val n.isLt]
  split_ifs
  · exact mul_one _
  · exact mul_zero _

/-- The kernel's tiled sum of a channel over a voxel is the specification's total. -/
theorem total_of_tiles (feat : VoxelAvg.SFeat.Idx → EReal) (idx : VoxelAvg.SVox.Idx → BitVec 32) (FX : ℕ → EReal)
    (IX : ℕ → BitVec 32) (b : Fin 8) (f : Fin 64) (v : ℕ) (hv : v < 32768)
    (hIX : ∀ p, p < 102400 → IX p = if h : p < 100000 then idx (ix2 b ⟨p, h⟩) else 32768#32)
    (hFX : ∀ p, p < 102400 → FX p = if h : p < 100000 then feat (ix3 b f ⟨p, h⟩) else 0) :
    ∑ n : Fin 25, ∑ k : Fin 4096,
        FX (n.val * 4096 + k.val) * (if IX (n.val * 4096 + k.val) = BitVec.ofNat 32 v then (1 : EReal) else 0)
      = VoxelAvg.total feat idx b f v := by
  unfold VoxelAvg.total
  exact tiles_select (fun n => feat (ix3 b f n)) idx FX IX b v hv hIX (fun p h => by
    rw [hFX p (by omega), dif_pos h])

/-- The kernel's tiled sum of the counting row over a voxel is the specification's count. -/
theorem count_of_tiles (idx : VoxelAvg.SVox.Idx → BitVec 32) (FX : ℕ → EReal) (IX : ℕ → BitVec 32)
    (b : Fin 8) (v : ℕ) (hv : v < 32768)
    (hIX : ∀ p, p < 102400 → IX p = if h : p < 100000 then idx (ix2 b ⟨p, h⟩) else 32768#32)
    (hFX : ∀ p, p < 102400 → FX p = 1) :
    ∑ n : Fin 25, ∑ k : Fin 4096,
        FX (n.val * 4096 + k.val) * (if IX (n.val * 4096 + k.val) = BitVec.ofNat 32 v then (1 : EReal) else 0)
      = VoxelAvg.count idx b v := by
  unfold VoxelAvg.count
  exact tiles_select (fun _ => (1 : EReal)) idx FX IX b v hv hIX (fun p h => hFX p (by omega))

end Cert.KernelSums
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.KernelHost.lean ====
/-
  What the kernel program's host lines leave, before its region, in the two arrays the region stages and in the
  normalized coordinates — in terms of the reference program's stages.

  The host lines up to the voxel numbers are the same operations as the reference program's, so the voxel numbers
  and the normalized, scaled and clipped coordinates are the reference's stages of the launch coordinates. The
  staged voxel numbers are those padded from 100000 to 102400 points with the word 32768 (a voxel number no grid
  cell has) and given a unit axis; the staged features are the launch features, narrowed (the identity on extended
  reals), padded with zero on the same lanes, with a 65th channel of ones appended, whose sum over a voxel's points
  is the voxel's count.
-/
import proofs.«151853_j89756226552188_2_alg».proof.Proof.Gen.KernelIdeal.Frame
import proofs.«151853_j89756226552188_2_alg».proof.Proof.Gen.ReferenceIdeal.Read
import proofs.«151853_j89756226552188_2_alg».proof.Proof.LibTRef
import Idealize.ShloMosaic.Lib.ValueIdx
import Idealize.ShloMosaic.Lib.IdealHost
import Idealize.ShloMosaic.Lib.KernelVsHost
import Idealize.ShloMosaic.Lib.StableHlo.Run
import Idealize.ShloMosaic.Lib.Pipeline.Value
import Idealize.ShloMosaic.PureOps.Ideal.Laws

noncomputable section

namespace Cert.KernelIdeal.HostPre

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## The host lines before the region, as whole arrays

The kernel program's host lines up to the voxel numbers are the reference program's, so the arrays they leave are
the reference's stages of the launch contents of the coordinates. The two arrays the region stages are built on
top: the voxel numbers padded on the point axis with the word 32768 and given a unit axis; the features narrowed
(the identity on extended reals), padded on the point axis with the converted integer zero, and extended by one
channel of ones. -/

set_option maxRecDepth 8192 in
/-- The voxel numbers are the reference's. -/
theorem v33_eq : (V (F := Ideal) m c main_v33 : S8x100000.Idx → BitVec 32)
    = Cert.ReferenceIdeal.Read.val_main_v33 (F := Ideal) (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results_simp
  simp only [StableHlo.TRef.ofBuf_toBuf, StableHlo.TRef.toBuf_ofBuf]
  rfl

set_option maxRecDepth 8192 in
/-- The normalized, scaled and clipped coordinates are the reference's. -/
theorem norm_eq : (V (F := Ideal) m c main_v19 : S8x3x100000.Idx → EReal)
    = Cert.ReferenceIdeal.Read.val_main_v19 (F := Ideal) (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results_simp
  simp only [StableHlo.TRef.ofBuf_toBuf, StableHlo.TRef.toBuf_ofBuf]
  rfl

set_option maxRecDepth 8192 in
/-- The staged voxel numbers: the reference's, padded with 32768 and given a unit axis. -/
theorem v35_eq : (V (F := Ideal) m c main_v35 : S8x1x102400.Idx → BitVec 32)
    = broadcastInDim S8x1x102400 ![0, 2] bcast_S8x102400_S8x1x102400_0_2
        (pad S8x102400 ![0, 0] ![0, 2400] ![0, 0]
          (Cert.ReferenceIdeal.Read.val_main_v33 (F := Ideal) (m ((c : Thread nD τ).loc main_arg1)) : S8x100000.Idx → BitVec 32)
          (constantI S_ 32 32768#32) pads_S8x100000_S8x102400_000_024000 h_S_) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results_simp
  simp only [StableHlo.TRef.ofBuf_toBuf, StableHlo.TRef.toBuf_ofBuf]
  rfl

set_option maxRecDepth 8192 in
/-- The staged features: narrowed, padded with the converted integer zero, and one channel of ones appended. -/
theorem v39_eq : (V (F := Ideal) m c main_v39 : S8x65x102400.Idx → EReal)
    = concatenate S8x65x102400 1
        [⟨S8x64x102400, pad S8x64x102400 ![0, 0, 0] ![0, 0, 2400] ![0, 0, 0]
            (truncf (F := Ideal) .bf16 (m ((c : Thread nD τ).loc main_arg0) : S8x64x100000.Idx → EReal) bitsLt_bf16_f32)
            (sitofp (F := Ideal) .bf16 (constantI S_ 32 0#32)) pads_S8x64x100000_S8x64x102400_000_000_024000 h_S_⟩,
         ⟨S8x1x102400, broadcastInDim S8x1x102400 ![] bcast_S_S8x1x102400 (constant (F := Ideal) S_ .bf16 0x3F80#16)⟩]
        concatenates_S8x64x102400_S8x1x102400_S8x65x102400_d1 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, List.flatten_cons, List.flatten_nil, List.append_nil, List.cons_append,
    List.nil_append]
  after_results_simp
  rfl

/-! ## The staged arrays read at an index -/

/-- The staged voxel numbers at batch element `b` and lane `p`: the reference's voxel number of point `p`
    where there is such a point, and the word 32768 on the padding lanes. -/
theorem idxp_apply (b : Fin 8) (p : Fin 102400) :
    (V (F := Ideal) m c main_v35 : S8x1x102400.Idx → BitVec 32) (ix3 b 0 p)
      = if h : p.val < 100000 then
          Cert.ReferenceIdeal.Read.val_main_v33 (F := Ideal) (m ((c : Thread nD τ).loc main_arg1)) (ix2 b ⟨p.val, h⟩)
        else 32768#32 := by
  refine (congrFun (v35_eq m c) (ix3 b 0 p)).trans ?_
  refine (broadcastInDim_apply _ bcast_S8x102400_S8x1x102400_0_2 _ (ix3 b 0 p) (ix2 b p) (fun a => match a with
    | ⟨0, _⟩ => by show b.val = if (8 : Nat) = 1 then 0 else b.val; rw [if_neg (by decide)]
    | ⟨1, _⟩ => by show p.val = if (102400 : Nat) = 1 then 0 else p.val; rw [if_neg (by decide)])).trans ?_
  by_cases h : p.val < 100000
  · rw [dif_pos h]
    exact pad_apply_of_inside _ _ _ _ _ pads_S8x100000_S8x102400_000_024000 h_S_ (ix2 b p) (ix2 b ⟨p.val, h⟩)
      (fun a => match a with
        | ⟨0, _⟩ => by show b.val = 0 + b.val * (0 + 1); omega
        | ⟨1, _⟩ => by show p.val = 0 + p.val * (0 + 1); omega)
  · rw [dif_neg h]
    exact pad_apply_of_not_inside _ _ _ _ _ pads_S8x100000_S8x102400_000_024000 h_S_ (ix2 b p) 1
      (by show ¬(0 ≤ p.val ∧ (p.val - 0) % (0 + 1) = 0 ∧ (p.val - 0) / (0 + 1) < 100000); omega)

/-- The staged features at batch element `b`, channel `f` and lane `p`: on the 64 feature channels the launch
    feature of point `p` where there is such a point and zero on the padding lanes; on the appended channel, one. -/
theorem featx_apply (b : Fin 8) (f : Fin 65) (p : Fin 102400) :
    (V (F := Ideal) m c main_v39 : S8x65x102400.Idx → EReal) (ix3 b f p)
      = (if hf : f.val < 64 then
          (if hp : p.val < 100000 then
            (m ((c : Thread nD τ).loc main_arg0) : S8x64x100000.Idx → EReal) (ix3 b ⟨f.val, hf⟩ ⟨p.val, hp⟩)
           else 0)
        else 1 : EReal) := by
  refine (congrFun (v39_eq m c) (ix3 b f p)).trans ?_
  by_cases hf : f.val < 64
  · rw [dif_pos hf]
    refine (concatenate_pair_apply_left (t := S8x65x102400) 1 _ _
      concatenates_S8x64x102400_S8x1x102400_S8x65x102400_d1 (ix3 b f p) rfl (ix3 b ⟨f.val, hf⟩ p)
      (fun a => match a with
        | ⟨0, _⟩ => rfl
        | ⟨1, _⟩ => rfl
        | ⟨2, _⟩ => rfl)).trans ?_
    by_cases hp : p.val < 100000
    · rw [dif_pos hp]
      exact pad_apply_of_inside _ _ _ _ _ pads_S8x64x100000_S8x64x102400_000_000_024000 h_S_
        (ix3 b ⟨f.val, hf⟩ p) (ix3 b ⟨f.val, hf⟩ ⟨p.val, hp⟩)
        (fun a => match a with
          | ⟨0, _⟩ => by show b.val = 0 + b.val * (0 + 1); omega
          | ⟨1, _⟩ => by show f.val = 0 + f.val * (0 + 1); omega
          | ⟨2, _⟩ => by show p.val = 0 + p.val * (0 + 1); omega)
    · rw [dif_neg hp]
      refine (pad_apply_of_not_inside _ _ _ _ _ pads_S8x64x100000_S8x64x102400_000_000_024000 h_S_
        (ix3 b ⟨f.val, hf⟩ p) 2
        (by show ¬(0 ≤ p.val ∧ (p.val - 0) % (0 + 1) = 0 ∧ (p.val - 0) / (0 + 1) < 100000); omega)).trans ?_
      show ((((0#32 : BitVec 32).toInt : ℤ) : ℝ) : EReal) = 0
      simp
  · rw [dif_neg hf]
    have hf64 : f.val = 64 := by have := f.isLt; omega
    refine (concatenate_pair_apply_right (t := S8x65x102400) 1 _ _
      concatenates_S8x64x102400_S8x1x102400_S8x65x102400_d1 (ix3 b f p) rfl rfl (ix3 b 0 p)
      (fun a => match a with
        | ⟨0, _⟩ => fun _ => rfl
        | ⟨1, _⟩ => fun h => absurd rfl h
        | ⟨2, _⟩ => fun _ => rfl)
      (by show 0 + 64 = f.val; omega)).trans ?_
    refine (broadcastInDim_apply _ bcast_S_S8x1x102400 _ (ix3 b 0 p) ix0 (fun a => a.elim0)).trans ?_
    show Ideal.ofBits .bf16 0x3F80#16 = 1
    exact Ideal.ofBits_one_bf16

end Cert.KernelIdeal.HostPre

end
-- ==== Proof.KernelOut.lean ====
/-
  The kernel's output array after the run.

  The grid has 8 × 25 points, point t = 25 b + n. The output window's block at point t is row b of the
  [8, 64, 32768] array (block index (b, 0, 0), block shape [1, 64, 32768]); it is written back only at the last
  point n = 24 of each row. So the array after the run is, row by row, what the point 25 b + 24 left in the
  window's buffer: if that is row b of one function G of the whole array, the array is G.
-/
import proofs.«151853_j89756226552188_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx

namespace Cert.KernelIdeal.OutArr

open Cert.KernelIdeal Cert.KernelIdeal.Gen

variable {F : FTy → Type} [FloatOps F]
variable (m : (ℓ : Loc nD τ sig) → Buf (Elt F) ℓ)

/-- The output window's block index at point `t` is `(t / 25, 0, 0)`: decided once over the 200 points. -/
theorem idx_facts : ∀ t : Fin cfg0.N, win0_2.index t (0 : Fin 3) = t.val / 25 ∧ win0_2.index t (1 : Fin 3) = 0
    ∧ win0_2.index t (2 : Fin 3) = 0 :=
  (by decide +kernel : ∀ t : Fin grid0.N, _)

/-- An index of the array is in point `t`'s block iff each coordinate is in the block's range on its axis. -/
theorem mem_blk (t : Fin cfg0.N) (i : S8x64x32768.Idx) :
    i ∈ ((cfg0.win 2).blk t).view.set ↔ ∀ a : Fin 3, win0_2.index t a * S1x64x32768.size a ≤ (i a).val
      ∧ (i a).val < win0_2.index t a * S1x64x32768.size a + S1x64x32768.size a := by
  show i ∈ ((View.whole main_v40).slice (win0_2.rect t)).set ↔ _
  rw [View.set_slice_whole, Rect.mem_set_unit]
  exact Iff.rfl

/-- What a writing-back point hands to the array is row `t / 25` of `G`, when every last point of a row leaves that
    row of `G` in the window's buffer: the block's element `(0, f, v)` sits in the array at `(t / 25, f, v)`. -/
theorem flushed_eq (c : Dev nD) (G : S8x64x32768.Idx → Elt F .f32)
    (h : ∀ t : Fin cfg0.N, t.val % 25 = 24 → ∀ (f : Fin 64) (v : Fin 32768),
      (outsAt0 m c t.val t.isLt).1 (ix3 0 f v)
        = G (ix3 ⟨t.val / 25, by have := t.isLt; have : cfg0.N = 200 := N_0; omega⟩ f v))
    (t : Fin cfg0.N) (hf : (cfg0.win 2).flush t = true) :
    (dats m 0 c).flushed 2 t = ((cfg0.win 2).blk t).view.read (Elt F) G := by
  have h24 : t.val % 25 = 24 := (flush0_2 t).mp hf
  show (cfg0.win 2).cut (grid0.coords t) ((dats m 0 c).after 2 t) = _
  rw [after0_2]
  obtain ⟨e0, e1, e2⟩ := idx_facts t
  funext j
  show (outsAt0 m c t.val t.isLt).1 (win0_2.xinj (grid0.coords t) j) = G (((cfg0.win 2).blk t).view.emb j)
  have hj0 : (j 0).val < 1 := (j 0).isLt
  have hj1 : (j 1).val < 64 := (j 1).isLt
  have hj2 : (j 2).val < 32768 := (j 2).isLt
  have hb : t.val / 25 < 8 := by have := t.isLt; have : cfg0.N = 200 := N_0; omega
  have hL : win0_2.xinj (grid0.coords t) j = ix3 (n0 := 1) (n1 := 64) (n2 := 32768) 0 ⟨(j 1).val, hj1⟩ ⟨(j 2).val, hj2⟩ := by
    funext a; apply Fin.ext
    match a with
    | ⟨0, _⟩ => show (j 0).val = 0; omega
    | ⟨1, _⟩ => rfl
    | ⟨2, _⟩ => rfl
  have hR : ((cfg0.win 2).blk t).view.emb j
      = ix3 (n0 := 8) (n1 := 64) (n2 := 32768) ⟨t.val / 25, hb⟩ ⟨(j 1).val, hj1⟩ ⟨(j 2).val, hj2⟩ := by
    funext a; apply Fin.ext
    match a with
    | ⟨0, _⟩ => show win0_2.index t (0 : Fin 3) * 1 + 1 * (j 0).val = t.val / 25; omega
    | ⟨1, _⟩ => show win0_2.index t (1 : Fin 3) * 64 + 1 * (j 1).val = (j 1).val; omega
    | ⟨2, _⟩ => show win0_2.index t (2 : Fin 3) * 32768 + 1 * (j 2).val = (j 2).val; omega
  rw [hL, hR]
  exact h t h24 _ _

/-- THE OUTPUT ARRAY after the run is `G`, as soon as the last point of every row leaves that row of `G` in the
    window's buffer: only those points write back, and row `b` of the array is the block of point `25 b + 24`. -/
theorem out_array (c : Dev nD) (G : S8x64x32768.Idx → Elt F .f32)
    (h : ∀ t : Fin cfg0.N, t.val % 25 = 24 → ∀ (f : Fin 64) (v : Fin 32768),
      (outsAt0 m c t.val t.isLt).1 (ix3 0 f v)
        = G (ix3 ⟨t.val / 25, by have := t.isLt; have : cfg0.N = 200 := N_0; omega⟩ f v)) :
    (dats m 0 c).arrAt 2 cfg0.N = G :=
  (dats m 0 c).arrAt_eq_of_cover 2 G (flushed_eq m c G h) fun i => by
    have hi0 : (i 0).val < 8 := (i 0).isLt
    have hi1 : (i 1).val < 64 := (i 1).isLt
    have hi2 : (i 2).val < 32768 := (i 2).isLt
    have hN : cfg0.N = 200 := N_0
    obtain ⟨t, ht⟩ : ∃ t : Fin cfg0.N, t.val = 25 * (i 0).val + 24 := ⟨⟨25 * (i 0).val + 24, by omega⟩, rfl⟩
    obtain ⟨e0, e1, e2⟩ := idx_facts t
    refine ⟨t, (flush0_2 t).mpr (by omega), ?_⟩
    rw [mem_blk]
    intro a
    match a with
    | ⟨0, _⟩ =>
      show win0_2.index t (0 : Fin 3) * 1 ≤ (i 0).val ∧ (i 0).val < win0_2.index t (0 : Fin 3) * 1 + 1
      omega
    | ⟨1, _⟩ =>
      show win0_2.index t (1 : Fin 3) * 64 ≤ (i 1).val ∧ (i 1).val < win0_2.index t (1 : Fin 3) * 64 + 64
      omega
    | ⟨2, _⟩ =>
      show win0_2.index t (2 : Fin 3) * 32768 ≤ (i 2).val ∧ (i 2).val < win0_2.index t (2 : Fin 3) * 32768 + 32768
      omega

end Cert.KernelIdeal.OutArr

end
-- ==== Proof.KernelRun.lean ====
/-
  What the kernel program's result buffers hold when the program has run, at any float instance.
  The program is: host operations, the pipelined region, one host operation after it — a reshape of the
  region's output array [8, 64, 32768] to [8, 64, 32, 32, 32]. The frame run says that every buffer the
  region does not stage ends at the value the trailing host operations compute from the region's exit
  contents; read at the two results and the two arguments this gives: the reshaped result is the reshape of
  the output array as the region leaves it, the second result is what the host operations before the region
  computed, and the arguments are as launched. Last, the reshape read at an index: element (b, f, x, y, z)
  is element (b, f, (x * 32 + y) * 32 + z) of the array, the two having the same row-major position.
-/
import proofs.«151853_j89756226552188_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.RunVal

open Idealize.ShloMosaic Idealize.ShloMosaic.TcCoe Idealize.ShloMosaic.ValueIdx
open Idealize.SL Idealize.SL.Sem
open Cert.KernelIdeal Cert.KernelIdeal.Gen
open Idealize.ShloMosaic.Pipeline (Dat Cfg Window)

variable {F : FTy → Type} [FloatOps F]
variable (m : (ℓ : Loc nD τ sig) → Buf (Elt F) ℓ) (ρ : Dev nD → PrngReg)

/-- The operation after the region does not write the second result, and the region stages no window on it: it ends
    at what the host operations before the region left there. -/
theorem W_main_v19 (c : Dev nD) :
    Pipeline.afterTail₀ cfgs (dats m) 0 (V0 m) [hostOps1] c main_v19 = V m c main_v19 := by
  unfold Pipeline.afterTail₀
  rw [StableHlo.after_of_forall_not_mem (b := Proc.devRef .tc main_v19) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_v19 (by exact (by decide : ∀ w, Pipeline.arrRef spec0 w ≠ main_v19))]

/-- The operation after the region writes the first result: the reshape of the region's output array, which at the
    region's exit holds what the last write-back left in it. -/
theorem W_main_v41 (c : Dev nD) :
    Pipeline.afterTail₀ cfgs (dats m) 0 (V0 m) [hostOps1] c main_v41
      = shapeCast S8x64x32x32x32 ((dats m 0 c).arrAt 2 cfg0.N) shapeCasts_S8x64x32768_S8x64x32x32x32 := by
  unfold Pipeline.afterTail₀
  show StableHlo.after hostOps1 _ (Proc.devRef .tc main_v41) = _
  after_results
  have e : Pipeline.withArrays (cfgs 0).spec c (V0 m c) (fun w => (dats m 0 c).arrAt w (cfgs 0).N) (Proc.devRef .tc main_v40)
      = (dats m 0 c).arrAt 2 cfg0.N :=
    Pipeline.withArrays_arr spec0 launch0.win.arr_inj c _ _ 2
  rw [e]
  rfl

/-- Every weakly fair execution of the program terminates, and in every final state, on every core: the first result
    is the reshape of the output array as the region leaves it, the second result is what the host operations before
    the region computed, and the two arguments are as launched. -/
theorem run_results :
    θ_run defs (onTc (τ := τ) (main (F := F))) ⟨m, fun _ => 0, ρ⟩ (fun r => ∀ c : Dev nD,
        r.2.mem ((c.tc : Thread nD τ).loc main_v41)
          = shapeCast S8x64x32x32x32 ((dats m 0 c).arrAt 2 cfg0.N) shapeCasts_S8x64x32768_S8x64x32x32x32
      ∧ r.2.mem ((c.tc : Thread nD τ).loc main_v19) = V m c main_v19
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v41 (Pipeline.mem_restRefs_of main_v41 (by decide) (by decide))).trans (W_main_v41 m c),
     ((h c).2 main_v19 (Pipeline.mem_restRefs_of main_v19 (by decide) (by decide))).trans (W_main_v19 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The reshape [8, 64, 32768] → [8, 64, 32, 32, 32] read at an index: element `(b, f, x, y, z)` is the array's element
    `(b, f, (x * 32 + y) * 32 + z)`, the two indices having the same row-major position. -/
theorem grid_apply {α : Type} (X : S8x64x32768.Idx → α) (h : S8x64x32768.ShapeCasts S8x64x32x32x32)
    (b : Fin 8) (f : Fin 64) (x y z : Fin 32) :
    shapeCast S8x64x32x32x32 X h (ix5 b f x y z)
      = X (ix3 b f ⟨(x.val * 32 + y.val) * 32 + z.val, by have := x.isLt; have := y.isLt; have := z.isLt; omega⟩) :=
  shapeCast_apply X h _ _ (by
    rw [Shape.rowMajor_val_three, Shape.rowMajor_val_five]
    show (b.val * 64 + f.val) * 32768 + ((x.val * 32 + y.val) * 32 + z.val)
      = (((b.val * 64 + f.val) * 32 + x.val) * 32 + y.val) * 32 + z.val
    omega)

end Cert.KernelIdeal.RunVal

end
-- ==== Proof.KValue.lean ====
/-
  The kernel's result grid is the specification's.

  After the last point of batch element `b` the sums accumulator holds, at channel `f` and voxel `v`, the sum over the 25
  tiles and the 4096 points of a tile of `feature × [voxel number = v]` read off the padded arrays the host lines
  prepared: the padded points carry the voxel number 32768, which is no voxel, and the feature 0, so the sum is the
  specification's `total` over the 100000 true points; the counts accumulator, fed by the row of ones, is its `count`.
  The output block is their quotient, the blocks of the 8 batch elements tile the output array, and the host's final
  reshape numbers the voxel `(x, y, z)` as `(32 x + y) 32 + z`.
-/
import proofs.«151853_j89756226552188_2_alg».proof.Proof.Accum
import proofs.«151853_j89756226552188_2_alg».proof.Proof.BlockRead
import proofs.«151853_j89756226552188_2_alg».proof.Proof.KernelSums
import proofs.«151853_j89756226552188_2_alg».proof.Proof.KernelHost
import proofs.«151853_j89756226552188_2_alg».proof.Proof.KernelOut
import proofs.«151853_j89756226552188_2_alg».proof.Proof.KernelRun
import proofs.«151853_j89756226552188_2_alg».proof.Proof.Spec

set_option maxRecDepth 16384

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.Pieces Cert.KernelIdeal.Accum Cert.AccumSum
open Cert.KernelIdeal.BlockRead

variable (m : (ℓ : Loc nD τ sig) → Buf (Elt Ideal) ℓ) (c : Dev nD)

/-- The features as launched. -/
abbrev feat : S8x64x100000.Idx → EReal := m ((c : Thread nD τ).loc main_arg0)
/-- The voxel numbers, as the reference's stage computes them from the coordinates as launched. -/
abbrev vidx : S8x100000.Idx → BitVec 32 :=
  Cert.ReferenceIdeal.Read.val_main_v33 (F := Ideal) (m ((c : Thread nD τ).loc main_arg1))

/-- The padded feature matrix's row `r` of batch element `b`, by padded point number. -/
def FX (b : Fin 8) (r : Fin 65) (p : ℕ) : EReal :=
  if h : p < 102400 then (V m c main_v39 : S8x65x102400.Idx → EReal) (ix3 b r ⟨p, h⟩) else 0
/-- The padded voxel numbers of batch element `b`, by padded point number. -/
def IX (b : Fin 8) (p : ℕ) : BitVec 32 :=
  if h : p < 102400 then (V m c main_v35 : S8x1x102400.Idx → BitVec 32) (ix3 b 0 ⟨p, h⟩) else 0

theorem hIX (b : Fin 8) : ∀ p, p < 102400 →
    IX m c b p = if h : p < 100000 then vidx m c (ix2 b ⟨p, h⟩) else 32768#32 := by
  intro p hp
  unfold IX
  rw [dif_pos hp]
  exact HostPre.idxp_apply m c b ⟨p, hp⟩

theorem hFX (b : Fin 8) (f : Fin 64) : ∀ p, p < 102400 →
    FX m c b (Fin.castSucc f) p = if h : p < 100000 then feat m c (ix3 b f ⟨p, h⟩) else 0 := by
  intro p hp
  unfold FX
  rw [dif_pos hp]
  refine (HostPre.featx_apply m c b (Fin.castSucc f) ⟨p, hp⟩).trans ?_
  rw [dif_pos (show (Fin.castSucc f).val < 64 from f.isLt)]
  rfl

theorem hFX1 (b : Fin 8) : ∀ p, p < 102400 → FX m c b (64 : Fin 65) p = 1 := by
  intro p hp
  unfold FX
  rw [dif_pos hp]
  refine (HostPre.featx_apply m c b (64 : Fin 65) ⟨p, hp⟩).trans ?_
  rw [dif_neg (show ¬(64 : Fin 65).val < 64 from by decide)]

/-- A point's contribution, read off the padded arrays. -/
theorem pt_tiles (b : Fin 8) (r : Fin 65) (v : Fin 32768) (n : Fin 25) :
    pt m c r v (25 * b.val + n.val)
      = ∑ k : Fin 4096, FX m c b r (n.val * 4096 + k.val)
          * (if IX m c b (n.val * 4096 + k.val) = BitVec.ofNat 32 v.val then (1 : EReal) else 0) := by
  have hlt : 25 * b.val + n.val < cfg0.N := by rw [show cfg0.N = 200 from N_0]; omega
  refine (pt_of_lt m c r v ⟨25 * b.val + n.val, hlt⟩).trans ?_
  unfold inc
  refine Finset.sum_congr rfl fun k _ => ?_
  have hb : bt ⟨25 * b.val + n.val, hlt⟩ = b := Fin.ext (by show (25 * b.val + n.val) / 25 = b.val; omega)
  have hl : lane ⟨25 * b.val + n.val, hlt⟩ k = ⟨n.val * 4096 + k.val, by omega⟩ :=
    Fin.ext (by show (25 * b.val + n.val) % 25 * 4096 + k.val = n.val * 4096 + k.val; rw [show (25 * b.val + n.val) % 25 = n.val from by omega])
  have hp : n.val * 4096 + k.val < 102400 := by omega
  have e1 := iblk1_apply m c ⟨25 * b.val + n.val, hlt⟩ r k
  have e0 := iblk0_apply m c ⟨25 * b.val + n.val, hlt⟩ k
  rw [hb, hl] at e1 e0
  unfold FX IX
  rw [dif_pos hp, dif_pos hp]
  exact congrArg₂ (fun a w => a * (if w = BitVec.ofNat 32 v.val then (1 : EReal) else 0)) e1 e0

/-- The finished sums of batch element `b`. -/
theorem acc_total (b : Fin 8) (f : Fin 64) (v : Fin 32768) :
    accR (pt m c (Fin.castSucc f) v) (25 * b.val + 24) = VoxelAvg.total (feat m c) (vidx m c) b f v.val := by
  rw [accR_last, Finset.sum_congr rfl (fun n _ => pt_tiles m c b (Fin.castSucc f) v n)]
  exact Cert.KernelSums.total_of_tiles (feat m c) (vidx m c) (FX m c b (Fin.castSucc f)) (IX m c b) b f v.val v.isLt
    (hIX m c b) (hFX m c b f)

/-- The finished counts of batch element `b`. -/
theorem acc_count (b : Fin 8) (v : Fin 32768) :
    accR (pt m c (64 : Fin 65) v) (25 * b.val + 24) = VoxelAvg.count (vidx m c) b v.val := by
  rw [accR_last, Finset.sum_congr rfl (fun n _ => pt_tiles m c b (64 : Fin 65) v n)]
  exact Cert.KernelSums.count_of_tiles (vidx m c) (FX m c b (64 : Fin 65)) (IX m c b) b v.val v.isLt
    (hIX m c b) (hFX1 m c b)

/-- The output array, voxel by voxel. -/
def G : S8x64x32768.Idx → EReal := fun i =>
  Ideal.div (VoxelAvg.total (feat m c) (vidx m c) (i 0) (i 1) (i 2).val) (max (VoxelAvg.count (vidx m c) (i 0) (i 2).val) 1)

theorem out_eq_G : (dats m 0 c).arrAt 2 cfg0.N = G m c := by
  refine OutArr.out_array m c (G m c) fun t h24 f v => ?_
  have hN : t.val < 200 := lt_of_lt_of_eq t.isLt N_0
  have ht : t.val = 25 * (t.val / 25) + 24 := by omega
  rw [out_at_last m c t h24 f v]
  have e1 := acc_total m c ⟨t.val / 25, by omega⟩ f v
  have e2 := acc_count m c ⟨t.val / 25, by omega⟩ v
  rw [← ht] at e1 e2
  rw [e1, e2]
  rfl

/-- The result grid: the output array under the host's final reshape. -/
theorem grid_eq :
    shapeCast S8x64x32x32x32 ((dats m 0 c).arrAt 2 cfg0.N) shapeCasts_S8x64x32768_S8x64x32x32x32
      = VoxelAvg.avg (feat m c) (vidx m c) := by
  funext i
  obtain ⟨b, f, x, y, z, rfl⟩ : ∃ b f x y z, i = ix5 b f x y z := ⟨i 0, i 1, i 2, i 3, i 4, eq_ix5 i⟩
  rw [RunVal.grid_apply, out_eq_G]
  rfl

/-- The idealized kernel's run: its two results at the specification's terms, the arguments unchanged. -/
theorem kernel_run (ρ : Dev nD → PrngReg) :
    θ_run defs (onTc (τ := τ) (main (F := Ideal))) ⟨m, fun _ => 0, ρ⟩ (fun r => ∀ c : Dev nD,
        r.2.mem ((c.tc : Thread nD τ).loc main_v41) = VoxelAvg.avg (feat m c) (vidx m c)
      ∧ r.2.mem ((c.tc : Thread nD τ).loc main_v19)
          = Cert.ReferenceIdeal.Read.val_main_v19 (F := Ideal) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (grid_eq m c), (h c).2.1.trans (HostPre.norm_eq m c), (h c).2.2⟩)
    (RunVal.run_results m ρ)

end Cert.KernelIdeal.KValue

end
-- ==== Proof.lean ====
/-
  The certificate's claim for a voxel-averaging kernel.

  Both programs turn a cloud of 100000 points per batch element — 64 feature channels and three coordinates — into a
  32 × 32 × 32 grid: the coordinates are centred, scaled and clipped to the grid, each point's rounded position is its
  voxel number, and a voxel's value in a channel is the sum of that channel over the voxel's points divided by the number
  of those points (at least 1). The reference does this with two accumulating scatters over the flat voxel number of all
  800000 points. The kernel has no scatter: for each batch element it pads the points to 25 tiles of 4096, and for every
  tile and every chunk of 1024 voxels multiplies the feature block, extended by a row of ones, with the 0/1 matrix
  "point k lies in voxel v", accumulating the products; after the last tile it divides the sums by the counts.

  At the ideal values the two are one function (`VoxelAvg.avg`, Proof/Spec.lean). The reference side: the scatters read
  at an index are sums over the points whose flat number is the row, and the flat number of a point determines its batch
  element and voxel because a voxel number is below 32768 — each coordinate is clipped to [0, 31] before it is rounded
  (Proof/RefValue.lean, Proof/VoxRange.lean). The kernel side: the loop over voxel chunks adds each point's contribution
  to every accumulator entry once (Proof/LoopVal.lean, Proof/PieceInc.lean, Proof/Pieces*.lean), the grid points of a batch
  element add up (Proof/Accum.lean), the padded points contribute nothing, a product with 0 or 1 is a selection
  (Proof/KernelSums.lean), and the blocks of the 8 batch elements tile the output (Proof/KernelOut.lean, Proof/KValue.lean).
  No step needs the features to be finite: only sums are rearranged, never a product distributed over one. The second
  result, the clipped coordinates, is computed by the same host lines in both programs. The ideal pass rewrote nothing, so
  the idealization is the kernel's own text read at the ideal values.
-/
import proofs.«151853_j89756226552188_2_alg».proof.Defs
import proofs.«151853_j89756226552188_2_alg».proof.Proof.Gen.Kernel
import proofs.«151853_j89756226552188_2_alg».proof.Proof.Gen.Kernel.Frame
import proofs.«151853_j89756226552188_2_alg».proof.Proof.Gen.KernelIdeal
import proofs.«151853_j89756226552188_2_alg».proof.Proof.Gen.KernelIdeal.Frame
import proofs.«151853_j89756226552188_2_alg».proof.Proof.Gen.ReferenceIdeal
import proofs.«151853_j89756226552188_2_alg».proof.Proof.Gen.ReferenceIdeal.Run
import proofs.«151853_j89756226552188_2_alg».proof.Proof.Gen.ReferenceIdeal.Read
import proofs.«151853_j89756226552188_2_alg».proof.Proof.Gen.Pre_finite_inputs
import proofs.«151853_j89756226552188_2_alg».proof.Proof.RefValue
import proofs.«151853_j89756226552188_2_alg».proof.Proof.VoxRange
import proofs.«151853_j89756226552188_2_alg».proof.Proof.KValue
import Idealize.ShloMosaic.Adequacy
import Idealize.ShloMosaic.Init

noncomputable section

namespace Cert.Proof

open Idealize.ShloMosaic Idealize.SL.Sem

/-- The idealized reference's run: its two results at the specification's terms, the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v56)
          = VoxelAvg.avg (m ((c.tc : Thread Cert.ReferenceIdeal.nD Cert.ReferenceIdeal.τ).loc Cert.ReferenceIdeal.main_arg0))
              (Cert.ReferenceIdeal.Read.val_main_v33 (F := Ideal) (m ((c.tc : Thread Cert.ReferenceIdeal.nD Cert.ReferenceIdeal.τ).loc Cert.ReferenceIdeal.main_arg1)))
      ∧ r.2.mem ((c.tc : Thread Cert.ReferenceIdeal.nD Cert.ReferenceIdeal.τ).loc Cert.ReferenceIdeal.main_v19)
          = Cert.ReferenceIdeal.Read.val_main_v19 (F := Ideal) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c =>
      ⟨(h c).1.trans ((Cert.ReferenceIdeal.Read.val_main_v56_eq m c).trans
          (Cert.ReferenceIdeal.RefValue.ref_grid _ _ (Cert.ReferenceIdeal.VoxRange.vox_range _))),
        (h c).2.1.trans (Cert.ReferenceIdeal.Read.val_main_v19_eq _), (h c).2.2⟩)
    (Cert.ReferenceIdeal.Value.run (F := Ideal) m ρ)

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to preserve. -/
theorem preserves : Cert.preserves_Kernel_KernelIdeal := trivial

/-- From memories that agree on the arguments both runs end at the specification's grid of the features and of the voxel
    numbers the coordinates determine, and at the clipped coordinates. -/
theorem algebraic : Cert.algebraic_KernelIdeal_ReferenceIdeal := by
  intro m ρ m' ρ' _ hagree
  refine ⟨_, _, Cert.KernelIdeal.KValue.kernel_run m ρ, ?_⟩
  refine (θ_run Cert.ReferenceIdeal.defs _ _).mono (fun _ h c => ?_) (ref_run m' ρ')
  have hc := h c
  exact ⟨hc.1.trans (by rw [(hagree c).1, (hagree c).2]), hc.2.1.trans (by rw [(hagree c).2]), hc.2.2⟩

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
